-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192x2048 : Shape := ⟨3, ![4, 8192, 2048]⟩
abbrev S4x2 : Shape := ⟨2, ![4, 2]⟩
abbrev S4x8192 : Shape := ⟨2, ![4, 8192]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S4x2 : S_.BroadcastsInDim S4x2 (![] : Fin 0 → Fin S4x2.rank)
  reducesTo_S4x2_S_d0_1 : S4x2.ReducesTo [0, 1] S_

variable [Facts]

def fn_part1 {F : FTy → Type} [FloatOps F] (main_v10 : IVec S_ 1) (main_v15 : IVec S4x2 1) (main_c_5 : IVec S_ 1) : IVec S_ 1 :=
  let main_v16 : IVec S_ 1 := (fun x v => Host.reduce IntOp.andi x v reducesTo_S4x2_S_d0_1 h_S_) main_v15 main_c_5
  let main_v17 : IVec S_ 1 := andi main_v10 main_v16
  main_v17

def fn {F : FTy → Type} [FloatOps F] (main_arg0 : FVec F S4x8192x2048 .f32) (main_arg1 : IVec S4x2 32) (main_arg2 : IVec S4x2 32) (main_arg3 : IVec S4x8192 1) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_c_0 : IVec S_ 32 := constantI S_ 32 0#32
  let main_v4 : IVec S4x2 32 := broadcastInDim S4x2 ![] bcast_S_S4x2 main_c_0
  let main_v5 : IVec S4x2 1 := cmpi .sge main_arg1 main_v4
  let main_c_1 : IVec S_ 32 := constantI S_ 32 8191#32
  let main_v6 : IVec S4x2 32 := broadcastInDim S4x2 ![] bcast_S_S4x2 main_c_1
  let main_v7 : IVec S4x2 1 := cmpi .sle main_arg1 main_v6
  let main_v8 : IVec S4x2 1 := andi main_v5 main_v7
  let main_c_2 : IVec S_ 1 := constantI S_ 1 1#1
  let main_v9 : IVec S_ 1 := (fun x v => Host.reduce IntOp.andi x v reducesTo_S4x2_S_d0_1 h_S_) main_v8 main_c_2
  let main_v10 : IVec S_ 1 := andi main_v3 main_v9
  let main_c_3 : IVec S_ 32 := constantI S_ 32 0#32
  let main_v11 : IVec S4x2 32 := broadcastInDim S4x2 ![] bcast_S_S4x2 main_c_3
  let main_v12 : IVec S4x2 1 := cmpi .sge main_arg2 main_v11
  let main_c_4 : IVec S_ 32 := constantI S_ 32 8191#32
  let main_v13 : IVec S4x2 32 := broadcastInDim S4x2 ![] bcast_S_S4x2 main_c_4
  let main_v14 : IVec S4x2 1 := cmpi .sle main_arg2 main_v13
  let main_v15 : IVec S4x2 1 := andi main_v12 main_v14
  let main_c_5 : IVec S_ 1 := constantI S_ 1 1#1
  fn_part1 (F := F) main_v10 main_v15 main_c_5
-- ==== Kernel.lean ====
abbrev S4x8192x2048 : Shape := ⟨3, ![4, 8192, 2048]⟩
abbrev S4x2 : Shape := ⟨2, ![4, 2]⟩
abbrev S4x8192 : Shape := ⟨2, ![4, 8192]⟩
abbrev S32768x2048 : Shape := ⟨2, ![32768, 2048]⟩
abbrev S4x1 : Shape := ⟨2, ![4, 1]⟩
abbrev S4 : Shape := ⟨1, ![4]⟩
abbrev S8 : Shape := ⟨1, ![8]⟩
abbrev S4x2048 : Shape := ⟨2, ![4, 2048]⟩
abbrev S_ : Shape := ⟨0, ![]⟩
abbrev S1 : Shape := ⟨1, ![1]⟩
abbrev S1x2048 : Shape := ⟨2, ![1, 2048]⟩

abbrev nBuf : Table → Nat
  | .hbm => 12
  | .local .scScalar .smem => 1
  | _ => 0

abbrev bufTy : (tb : Table) → Fin (nBuf tb) → BufTy
  | .hbm, ⟨0, _⟩ => ⟨S4x8192x2048, .f32⟩
  | .hbm, ⟨1, _⟩ => ⟨S4x2, .i32⟩
  | .hbm, ⟨2, _⟩ => ⟨S4x2, .i32⟩
  | .hbm, ⟨3, _⟩ => ⟨S4x8192, .i1⟩
  | .hbm, ⟨4, _⟩ => ⟨S32768x2048, .f32⟩
  | .hbm, ⟨5, _⟩ => ⟨S4x1, .i32⟩
  | .hbm, ⟨6, _⟩ => ⟨S4, .i32⟩
  | .hbm, ⟨7, _⟩ => ⟨S4x1, .i32⟩
  | .hbm, ⟨8, _⟩ => ⟨S4, .i32⟩
  | .hbm, ⟨9, _⟩ => ⟨S8, .i32⟩
  | .hbm, ⟨10, _⟩ => ⟨S4x2048, .f32⟩
  | .hbm, ⟨11, _⟩ => ⟨S4x2048, .f32⟩
  | .local .scScalar .smem, ⟨0, _⟩ => ⟨S8, .i32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v5_scs : Ref sig .scScalar := ⟨.hbm, 9, rfl⟩
abbrev main_v0_scs : Ref sig .scScalar := ⟨.hbm, 4, rfl⟩
abbrev main_v6_0_scs : Ref sig .scScalar := ⟨.hbm, 10, rfl⟩
abbrev main_v6_1_scs : Ref sig .scScalar := ⟨.hbm, 11, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  let v2 : BitVec 32 := Scalar.addi v1 c0_i32_0
  let c0_i32_3 : BitVec 32 := 0#32
  ![v2.toNat, 0]

def k0_chk1 (v1 : BitVec 32) : Prop :=
  (∀ a, (k0_off1 v1) a + S1x2048.size a ≤ S32768x2048.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x2048.size a ≤ S32768x2048.size a := fun v1 k0_hw1 => k0_hw1

def k0_off2 (v6 : BitVec 32) : Fin 2 → Nat :=
  let c0_i32_4 : BitVec 32 := 0#32
  let v7 : BitVec 32 := Scalar.addi v6 c0_i32_4
  let c0_i32_7 : BitVec 32 := 0#32
  ![v7.toNat, 0]

def k0_chk2 (v6 : BitVec 32) : Prop :=
  (∀ a, (k0_off2 v6) a + S1x2048.size a ≤ S32768x2048.size a)
instance k0_chk2.dec : ∀ (v6 : BitVec 32), Decidable (k0_chk2 v6) := fun v6 => decidable_of_iff' _ (Iff.of_eq (k0_chk2.eq_1 v6))
theorem k0_off2_inb : ∀ (v6 : BitVec 32) (k0_hw2 : k0_chk2 v6), ∀ a, (k0_off2 v6) a + S1x2048.size a ≤ S32768x2048.size a := fun v6 k0_hw2 => k0_hw2

def k0_off3 (v11 : BitVec 32) : Fin 2 → Nat :=
  let c8192_i32 : BitVec 32 := 8192#32
  let v12 : BitVec 32 := Scalar.addi v11 c8192_i32
  let c0_i32_10 : BitVec 32 := 0#32
  ![v12.toNat, 0]

def k0_chk3 (v11 : BitVec 32) : Prop :=
  (∀ a, (k0_off3 v11) a + S1x2048.size a ≤ S32768x2048.size a)
instance k0_chk3.dec : ∀ (v11 : BitVec 32), Decidable (k0_chk3 v11) := fun v11 => decidable_of_iff' _ (Iff.of_eq (k0_chk3.eq_1 v11))
theorem k0_off3_inb : ∀ (v11 : BitVec 32) (k0_hw3 : k0_chk3 v11), ∀ a, (k0_off3 v11) a + S1x2048.size a ≤ S32768x2048.size a := fun v11 k0_hw3 => k0_hw3

def k0_off4 (v16 : BitVec 32) : Fin 2 → Nat :=
  let c8192_i32_11 : BitVec 32 := 8192#32
  let v17 : BitVec 32 := Scalar.addi v16 c8192_i32_11
  let c0_i32_14 : BitVec 32 := 0#32
  ![v17.toNat, 0]

def k0_chk4 (v16 : BitVec 32) : Prop :=
  (∀ a, (k0_off4 v16) a + S1x2048.size a ≤ S32768x2048.size a)
instance k0_chk4.dec : ∀ (v16 : BitVec 32), Decidable (k0_chk4 v16) := fun v16 => decidable_of_iff' _ (Iff.of_eq (k0_chk4.eq_1 v16))
theorem k0_off4_inb : ∀ (v16 : BitVec 32) (k0_hw4 : k0_chk4 v16), ∀ a, (k0_off4 v16) a + S1x2048.size a ≤ S32768x2048.size a := fun v16 k0_hw4 => k0_hw4

def k0_off5 (v21 : BitVec 32) : Fin 2 → Nat :=
  let c16384_i32 : BitVec 32 := 16384#32
  let v22 : BitVec 32 := Scalar.addi v21 c16384_i32
  let c0_i32_17 : BitVec 32 := 0#32
  ![v22.toNat, 0]

def k0_chk5 (v21 : BitVec 32) : Prop :=
  (∀ a, (k0_off5 v21) a + S1x2048.size a ≤ S32768x2048.size a)
instance k0_chk5.dec : ∀ (v21 : BitVec 32), Decidable (k0_chk5 v21) := fun v21 => decidable_of_iff' _ (Iff.of_eq (k0_chk5.eq_1 v21))
theorem k0_off5_inb : ∀ (v21 : BitVec 32) (k0_hw5 : k0_chk5 v21), ∀ a, (k0_off5 v21) a + S1x2048.size a ≤ S32768x2048.size a := fun v21 k0_hw5 => k0_hw5

def k0_off6 (v26 : BitVec 32) : Fin 2 → Nat :=
  let c16384_i32_18 : BitVec 32 := 16384#32
  let v27 : BitVec 32 := Scalar.addi v26 c16384_i32_18
  let c0_i32_21 : BitVec 32 := 0#32
  ![v27.toNat, 0]

def k0_chk6 (v26 : BitVec 32) : Prop :=
  (∀ a, (k0_off6 v26) a + S1x2048.size a ≤ S32768x2048.size a)
instance k0_chk6.dec : ∀ (v26 : BitVec 32), Decidable (k0_chk6 v26) := fun v26 => decidable_of_iff' _ (Iff.of_eq (k0_chk6.eq_1 v26))
theorem k0_off6_inb : ∀ (v26 : BitVec 32) (k0_hw6 : k0_chk6 v26), ∀ a, (k0_off6 v26) a + S1x2048.size a ≤ S32768x2048.size a := fun v26 k0_hw6 => k0_hw6

def k0_off7 (v31 : BitVec 32) : Fin 2 → Nat :=
  let c24576_i32 : BitVec 32 := 24576#32
  let v32 : BitVec 32 := Scalar.addi v31 c24576_i32
  let c0_i32_24 : BitVec 32 := 0#32
  ![v32.toNat, 0]

def k0_chk7 (v31 : BitVec 32) : Prop :=
  (∀ a, (k0_off7 v31) a + S1x2048.size a ≤ S32768x2048.size a)
instance k0_chk7.dec : ∀ (v31 : BitVec 32), Decidable (k0_chk7 v31) := fun v31 => decidable_of_iff' _ (Iff.of_eq (k0_chk7.eq_1 v31))
theorem k0_off7_inb : ∀ (v31 : BitVec 32) (k0_hw7 : k0_chk7 v31), ∀ a, (k0_off7 v31) a + S1x2048.size a ≤ S32768x2048.size a := fun v31 k0_hw7 => k0_hw7

def k0_off8 (v36 : BitVec 32) : Fin 2 → Nat :=
  let c24576_i32_25 : BitVec 32 := 24576#32
  let v37 : BitVec 32 := Scalar.addi v36 c24576_i32_25
  let c0_i32_28 : BitVec 32 := 0#32
  ![v37.toNat, 0]

def k0_chk8 (v36 : BitVec 32) : Prop :=
  (∀ a, (k0_off8 v36) a + S1x2048.size a ≤ S32768x2048.size a)
instance k0_chk8.dec : ∀ (v36 : BitVec 32), Decidable (k0_chk8 v36) := fun v36 => decidable_of_iff' _ (Iff.of_eq (k0_chk8.eq_1 v36))
theorem k0_off8_inb : ∀ (v36 : BitVec 32) (k0_hw8 : k0_chk8 v36), ∀ a, (k0_off8 v36) a + S1x2048.size a ≤ S32768x2048.size a := fun v36 k0_hw8 => k0_hw8

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S4x8192x2048_S32768x2048 : S4x8192x2048.ShapeCasts S32768x2048
  slices_S4x2_S4x1_0_0 : S4x2.Slices ![0, 0] S4x1
  shapeCasts_S4x1_S4 : S4x1.ShapeCasts S4
  concatenates_S4_S4_S8_d0 : Shape.Concatenates [S4, S4] S8 0
  inb_S8_S1_0 : ∀ a, (![0] : Fin 1 → Nat) a + S1.size a ≤ S8.size a
  numel1_S1 : S1.numel = 1
  inb_S4x2048_S1x2048_0_0 : ∀ a, (![0, 0] : Fin 2 → Nat) a + S1x2048.size a ≤ S4x2048.size a
  inb_S8_S1_4 : ∀ a, (![4] : Fin 1 → Nat) a + S1.size a ≤ S8.size a
  inb_S8_S1_1 : ∀ a, (![1] : Fin 1 → Nat) a + S1.size a ≤ S8.size a
  inb_S4x2048_S1x2048_1_0 : ∀ a, (![1, 0] : Fin 2 → Nat) a + S1x2048.size a ≤ S4x2048.size a
  inb_S8_S1_5 : ∀ a, (![5] : Fin 1 → Nat) a + S1.size a ≤ S8.size a
  inb_S8_S1_2 : ∀ a, (![2] : Fin 1 → Nat) a + S1.size a ≤ S8.size a
  inb_S4x2048_S1x2048_2_0 : ∀ a, (![2, 0] : Fin 2 → Nat) a + S1x2048.size a ≤ S4x2048.size a
  inb_S8_S1_6 : ∀ a, (![6] : Fin 1 → Nat) a + S1.size a ≤ S8.size a
  inb_S8_S1_3 : ∀ a, (![3] : Fin 1 → Nat) a + S1.size a ≤ S8.size a
  inb_S4x2048_S1x2048_3_0 : ∀ a, (![3, 0] : Fin 2 → Nat) a + S1x2048.size a ≤ S4x2048.size a
  inb_S8_S1_7 : ∀ a, (![7] : Fin 1 → Nat) a + S1.size a ≤ S8.size a
  inb_S32768x2048_S1x2048_0_0 : ∀ a, (![0, 0] : Fin 2 → Nat) a + S1x2048.size a ≤ S32768x2048.size a
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S4x8192x2048 : Shape := ⟨3, ![4, 8192, 2048]⟩
abbrev S4x2 : Shape := ⟨2, ![4, 2]⟩
abbrev S4x8192 : Shape := ⟨2, ![4, 8192]⟩
abbrev S4 : Shape := ⟨1, ![4]⟩
abbrev S4x1 : Shape := ⟨2, ![4, 1]⟩
abbrev S_ : Shape := ⟨0, ![]⟩
abbrev S4x2048 : Shape := ⟨2, ![4, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2, .i32⟩
  | .hbm, ⟨2, _⟩ => ⟨S4x2, .i32⟩
  | .hbm, ⟨3, _⟩ => ⟨S4x8192, .i1⟩
  | .hbm, ⟨4, _⟩ => ⟨S4, .i32⟩
  | .hbm, ⟨5, _⟩ => ⟨S4x1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S4x1, .i32⟩
  | .hbm, ⟨23, _⟩ => ⟨S4x2, .i32⟩
  | .hbm, ⟨24, _⟩ => ⟨S4x2048, .f32⟩
  | .hbm, ⟨25, _⟩ => ⟨S4, .i32⟩
  | .hbm, ⟨26, _⟩ => ⟨S4x1, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S4x1, .i32⟩
  | .hbm, ⟨43, _⟩ => ⟨S4x1, .i32⟩
  | .hbm, ⟨44, _⟩ => ⟨S4x2, .i32⟩
  | .hbm, ⟨45, _⟩ => ⟨S4x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S4x2_S4x1_0_0 : S4x2.Slices ![0, 0] S4x1
  shapeCasts_S4x1_S4 : S4x1.ShapeCasts S4
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  gather_S4x8192x2048_S4x2_S4x2048_1_01_n_n_01_1_112048_wf : GatherDims.WF S4x8192x2048 S4x2 S4x2048 [1] [0, 1] [] [0, 1] [] 1 ![1, 1, 2048]

variable [Facts₀]

def gather_S4x8192x2048_S4x2_S4x2048_1_01_n_n_01_1_112048 : GatherDims S4x8192x2048 S4x2 S4x2048 where
  offsetDims := [1]
  collapsedSliceDims := [0, 1]
  operandBatchingDims := []
  startIndicesBatchingDims := []
  startIndexMap := [0, 1]
  indexVectorDim := 1
  sliceSizes := ![1, 1, 2048]
  wf := gather_S4x8192x2048_S4x2_S4x2048_1_01_n_n_01_1_112048_wf

class Facts : Prop extends Facts₀ where

variable [Facts]
-- ==== Proof.Range.lean ====
/-
  The precondition, decoded: every position is below 8192.

  The precondition is jnp.all over three arrays joined by `and`; its scalar result being 1 says each reduce's
  result is 1, hence (a reduce by `and` from 1 over all axes) every element compared is 1: for every entry of either
  position array, 0 ≤ pos and pos ≤ 8191 as signed words. Such a word read unsigned is below 8192.
-/
import proofs.«207034_g45122926411967_cont_8to1c4_813_9_alg».proof.Pre_input_domain
import proofs.«207034_g45122926411967_cont_8to1c4_813_9_alg».proof.Proof.Gen.Pre_input_domain
import Idealize.ShloMosaic.Lib.ReduceAll
import Idealize.ShloMosaic.Lib.ValueIdx

noncomputable section

namespace Cert.Range

open Idealize.ShloMosaic Idealize.ShloMosaic.ValueIdx Cert.Pre_input_domain Cert.Pre_input_domain.Gen

instance : Subsingleton S_.Idx := ⟨fun a b => funext fun d => d.elim0⟩

/-- A word with 0 ≤ w ≤ 8191, read signed, is below 8192 read unsigned. -/
theorem toNat_lt_of_range (w : BitVec 32) (h0 : IntOp.cmpi .sge w 0#32 = 1#1) (h1 : IntOp.cmpi .sle w 8191#32 = 1#1) : w.toNat < 8192 := by
  have a := IntOp.cmpi_sge.mp h0
  have b := IntOp.cmpi_sle.mp h1
  have e0 : (0#32 : BitVec 32).toInt = 0 := by decide
  have e1 : (8191#32 : BitVec 32).toInt = 8191 := by decide
  rw [e0] at a; rw [e1] at b
  have h32 := w.isLt
  by_cases hc : 2 * w.toNat < 2 ^ 32
  · rw [BitVec.toInt_eq_toNat_of_lt hc] at b; omega
  · exfalso; rw [BitVec.toInt_eq_toNat_cond, if_neg hc] at a; omega

variable {F : FTy → Type} [FloatOps F]

/-- Under the precondition both position arrays hold words below 8192. -/
theorem pos_range (a0 : FVec F S4x8192x2048 .f32) (a1 a2 : IVec S4x2 32) (a3 : IVec S4x8192 1)
    (h : fn (F := F) a0 a1 a2 a3 = fun _ => 1#1) :
    (∀ i, (a1 i).toNat < 8192) ∧ (∀ i, (a2 i).toNat < 8192) := by
  have h0 := congrFun h ix0
  unfold fn fn_part1 at h0
  dsimp only at h0
  obtain ⟨h10, h16⟩ := IntOp.andi_eq_one.mp h0
  obtain ⟨-, h9⟩ := IntOp.andi_eq_one.mp h10
  refine ⟨fun i => ?_, fun i => ?_⟩
  · have e := Host.reduce_andi_all _ _ _ _ ix0 h9 i
    obtain ⟨e5, e7⟩ := IntOp.andi_eq_one.mp e
    exact toNat_lt_of_range _ e5 e7
  · have e := Host.reduce_andi_all _ _ _ _ ix0 h16 i
    obtain ⟨e5, e7⟩ := IntOp.andi_eq_one.mp e
    exact toNat_lt_of_range _ e5 e7

end Cert.Range

end
-- ==== Proof.KB.Setup.lean ====
/-
  The kernel program, read at the word-level instance, as the SparseCore launch theorem sees it, and the ghost
  state of its proof. (The same text as for the idealized program: nothing in it depends on how floats are read.)

  One scalar-subcore call on SparseCore 0. Its sequencer copies the eight positions into its scalar memory,
  then starts eight one-row copies out of the flattened table [32768, 2048] into the rows of the two results
  [4, 2048] — all eight on ONE DMA semaphore — and only then waits eight times on it. Between the first start
  and the last wait nothing reads or writes a source row or a destination row, so after the last wait every
  row has landed whatever the order of completion.

  The call takes from the TensorCore the positions, the table and the two result arrays, and hands them back
  with result row b of the first array equal to table row pos[b] + 8192 b and of the second to table row
  pos[4 + b] + 8192 b. The only transfers are the sequencer's own, so the ghost state is the handshakes'
  rounds beside plain transfer counters and the kernel consumes nothing of the launch's.
-/
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207034_g45122926411967_cont_8to1c4_813_9_alg».proof.Proof.Gen.Kernel
import proofs.«207034_g45122926411967_cont_8to1c4_813_9_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays the call moves -/

/-- The positions [8], the flattened table [32768, 2048] and the two results [4, 2048], as the TensorCore names them. -/
abbrev pLoc (d : Dev nD) : Loc nD τ sig := (SparseCore.T d).loc main_v5
abbrev tLoc (d : Dev nD) : Loc nD τ sig := (SparseCore.T d).loc main_v0
abbrev aLoc (d : Dev nD) : Loc nD τ sig := (SparseCore.T d).loc main_v6_0
abbrev bLoc (d : Dev nD) : Loc nD τ sig := (SparseCore.T d).loc main_v6_1

end Cert.Proof.KB

end
-- ==== Proof.KB.Body.lean ====
/-
  The sequencer's body, once, at a symbolic SparseCore.

  The positions land in the sequencer's scalar memory by one copy that is waited for at once; word k read back
  from there is position k. Under 0 ≤ pos[k] < 8192 the row offset pos[k] + 8192 b computed in 32-bit words does
  not wrap and stays below 32768, which is the side condition the body assumes before each slice of the table.
  The eight one-row copies are one batch on one semaphore: every copy is started, then the batch is drained by
  eight waits of one row's credit, and the last wait hands every row back at once. Each copy reads the table
  through a read share of the whole array, since nothing says two source rows differ. The four rows written to a
  result array cover it, so what the array holds afterwards is one function of the table and the positions,
  whatever it held before.
-/
import proofs.«207034_g45122926411967_cont_8to1c4_813_9_alg».proof.Proof.KB.Setup
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "pW" => (Memref.whole Cert.Kernel.main_v5_scs : Memref Cert.Kernel.sig Kind.scScalar Space.hbm Cert.Kernel.S8 EltTy.i32)
local notation "tW" => (Memref.whole Cert.Kernel.main_v0_scs : Memref Cert.Kernel.sig Kind.scScalar Space.hbm Cert.Kernel.S32768x2048 EltTy.f32)
local notation "aW" => (Memref.whole Cert.Kernel.main_v6_0_scs : Memref Cert.Kernel.sig Kind.scScalar Space.hbm Cert.Kernel.S4x2048 EltTy.f32)
local notation "bW" => (Memref.whole Cert.Kernel.main_v6_1_scs : Memref Cert.Kernel.sig Kind.scScalar Space.hbm Cert.Kernel.S4x2048 EltTy.f32)
local notation "sW" => (Memref.whole Cert.Kernel.cc0_scratch0 : Memref Cert.Kernel.sig Kind.scScalar Space.smem Cert.Kernel.S8 EltTy.i32)

/-! ## What the result arrays hold: rows of the table -/

section Rows
variable {α : Type}

/-- The array [4, 2048] whose row b is row `r b` of the table (clamped into the table, which the rows met here
    never need). -/
def rowsOf (ft : S32768x2048.Idx → α) (r0 r1 r2 r3 : ℕ) : S4x2048.Idx → α :=
  fun j => ft (ix2 (⟨min (![r0, r1, r2, r3] (j 0)) 32767, by omega⟩ : Fin 32768) (j 1))

end Rows

/-- Table row pos[4 h + b] + 8192 b: the row the kernel copies into row b of result h. -/
def rowAt (fp : S8.Idx → BitVec 32) (h : Fin 2) (b : Fin 4) : ℕ :=
  (fp (ix1 (⟨4 * h.val + b.val, by omega⟩ : Fin 8))).toNat + 8192 * b.val

/-- Result h as a function of the positions and the table. -/
abbrev gathered {α : Type} (fp : S8.Idx → BitVec 32) (ft : S32768x2048.Idx → α) (h : Fin 2) : S4x2048.Idx → α :=
  rowsOf ft (rowAt fp h 0) (rowAt fp h 1) (rowAt fp h 2) (rowAt fp h 3)

/-! ## Words: a position plus a batch's base row does not wrap -/

theorem toNat_addi (v : BitVec 32) (hv : v.toNat < 8192) (c : ℕ) (hc : c ≤ 24576) :
    (Scalar.addi v (BitVec.ofNat 32 c)).toNat = v.toNat + c := by
  show (v + BitVec.ofNat 32 c).toNat = _
  rw [BitVec.toNat_add, BitVec.toNat_ofNat]
  omega

theorem off1_eq (v : BitVec 32) (hv : v.toNat < 8192) : k0_off1 v = ![v.toNat + 0, 0] := by
  unfold k0_off1; exact congrArg (fun n => ![n, 0]) (toNat_addi v hv 0 (by omega))
theorem off2_eq (v : BitVec 32) (hv : v.toNat < 8192) : k0_off2 v = ![v.toNat + 0, 0] := by
  unfold k0_off2; exact congrArg (fun n => ![n, 0]) (toNat_addi v hv 0 (by omega))
theorem off3_eq (v : BitVec 32) (hv : v.toNat < 8192) : k0_off3 v = ![v.toNat + 8192, 0] := by
  unfold k0_off3; exact congrArg (fun n => ![n, 0]) (toNat_addi v hv 8192 (by omega))
theorem off4_eq (v : BitVec 32) (hv : v.toNat < 8192) : k0_off4 v = ![v.toNat + 8192, 0] := by
  unfold k0_off4; exact congrArg (fun n => ![n, 0]) (toNat_addi v hv 8192 (by omega))
theorem off5_eq (v : BitVec 32) (hv : v.toNat < 8192) : k0_off5 v = ![v.toNat + 16384, 0] := by
  unfold k0_off5; exact congrArg (fun n => ![n, 0]) (toNat_addi v hv 16384 (by omega))
theorem off6_eq (v : BitVec 32) (hv : v.toNat < 8192) : k0_off6 v = ![v.toNat + 16384, 0] := by
  unfold k0_off6; exact congrArg (fun n => ![n, 0]) (toNat_addi v hv 16384 (by omega))
theorem off7_eq (v : BitVec 32) (hv : v.toNat < 8192) : k0_off7 v = ![v.toNat + 24576, 0] := by
  unfold k0_off7; exact congrArg (fun n => ![n, 0]) (toNat_addi v hv 24576 (by omega))
theorem off8_eq (v : BitVec 32) (hv : v.toNat < 8192) : k0_off8 v = ![v.toNat + 24576, 0] := by
  unfold k0_off8; exact congrArg (fun n => ![n, 0]) (toNat_addi v hv 24576 (by omega))

/-- A one-row window at row `r < 32768` of the table lies inside it. -/
theorem row_inb {o : Fin 2 → ℕ} {r : ℕ} (e : o = ![r, 0]) (hr : r < 32768) : ∀ a, o a + S1x2048.size a ≤ S32768x2048.size a := by
  subst e; intro a
  match a with
  | ⟨0, _⟩ => show r + 1 ≤ 32768; omega
  | ⟨1, _⟩ => show 0 + 2048 ≤ 2048; omega

theorem chk1_of (v : BitVec 32) (hv : v.toNat < 8192) : k0_chk1 v := row_inb (off1_eq v hv) (by omega)
theorem chk2_of (v : BitVec 32) (hv : v.toNat < 8192) : k0_chk2 v := row_inb (off2_eq v hv) (by omega)
theorem chk3_of (v : BitVec 32) (hv : v.toNat < 8192) : k0_chk3 v := row_inb (off3_eq v hv) (by omega)
theorem chk4_of (v : BitVec 32) (hv : v.toNat < 8192) : k0_chk4 v := row_inb (off4_eq v hv) (by omega)
theorem chk5_of (v : BitVec 32) (hv : v.toNat < 8192) : k0_chk5 v := row_inb (off5_eq v hv) (by omega)
theorem chk6_of (v : BitVec 32) (hv : v.toNat < 8192) : k0_chk6 v := row_inb (off6_eq v hv) (by omega)
theorem chk7_of (v : BitVec 32) (hv : v.toNat < 8192) : k0_chk7 v := row_inb (off7_eq v hv) (by omega)
theorem chk8_of (v : BitVec 32) (hv : v.toNat < 8192) : k0_chk8 v := row_inb (off8_eq v hv) (by omega)

/-! ## The word the sequencer reads back, and a row as the copy reads it -/

/-- Word `k` of the scalar memory after the positions were copied into it whole: position `k`. -/
theorem word_eq (fp fs : (⟨S8, .i32⟩ : BufTy).Contents (Elt F)) (k : Fin 8)
    (hk : ∀ a, (![k.val] : Fin 1 → ℕ) a + S1.size a ≤ S8.size a) (h1 : 0 < (Rect.unit (s := S8) ![k.val] S1.size hk).toLoadRect.shape.numel) :
    View.readAt (Elt F) (sW).view (Rect.unit (s := S8) ![k.val] S1.size hk).toLoadRect
        (View.write (Elt F) (sW).view fs (ReadAs.same.apply (View.read (Elt F) (pW).view fp)) Finset.univ) (Shape.Idx.first h1)
      = fp (ix1 k) := by
  simp only [View.readAt_apply, Memref.view_whole, View.write_whole_univ, View.read_whole]
  change fp _ = fp (ix1 k)
  refine congrArg fp ?_
  funext a
  refine Fin.ext ?_
  match a with
  | ⟨0, _⟩ =>
    have h' : (Shape.Idx.first h1 (0 : Fin 1)).val < 1 := (Shape.Idx.first h1 (0 : Fin 1)).isLt
    show k.val + 1 * (Shape.Idx.first h1 (0 : Fin 1)).val = k.val
    omega

/-- What a one-row copy out of the table carries: element `x` of the row window at row `r` is the table at `(r, x 1)`. -/
theorem row_payload (ft : (⟨S32768x2048, .f32⟩ : BufTy).Contents (Elt F)) (o : Fin 2 → ℕ) (r : ℕ) (e : o = ![r, 0]) (hr : r < 32768)
    (hin : ∀ a, o a + S1x2048.size a ≤ S32768x2048.size a) (hs : ∀ a, (Rect.unit (s := S32768x2048) o S1x2048.size hin).stride a = 1)
    (x : S1x2048.Idx) :
    ReadAs.same.apply (View.read (Elt F) ((tW).slice (Rect.unit (s := S32768x2048) o S1x2048.size hin) hs).view ft) x
      = ft (ix2 (⟨r, hr⟩ : Fin 32768) (x 1)) := by
  subst e
  change View.read (Elt F) ((tW).slice (Rect.unit (s := S32768x2048) ![r, 0] S1x2048.size hin) hs).view ft x = _
  simp only [Memref.view_slice, Memref.view_whole]
  refine (View.read_apply _ _).trans ((cast_eq _ _).trans ?_)
  refine congrArg ft ?_
  funext a
  refine Fin.ext ?_
  match a with
  | ⟨0, _⟩ =>
    have h : (x 0).val < 1 := (x 0).isLt
    show r + 1 * (x 0).val = r
    omega
  | ⟨1, _⟩ =>
    show 0 + 1 * (x 1).val = (x 1).val
    omega

/-- Four one-row writes, one per row of a [4, 2048] array, each carrying a row of the table: read back, the array
    is `rowsOf` of the table, whatever it held before. -/
theorem read_rows {κ : Kind} {sp : Space} (v : View sig κ sp S4x2048 .f32) (f0 : v.ty.Contents (Elt F))
    (ft : (⟨S32768x2048, .f32⟩ : BufTy).Contents (Elt F)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768)
    (i0 : ∀ a, o0 a + S1x2048.size a ≤ S32768x2048.size a) (i1 : ∀ a, o1 a + S1x2048.size a ≤ S32768x2048.size a)
    (i2 : ∀ a, o2 a + S1x2048.size a ≤ S32768x2048.size a) (i3 : ∀ a, o3 a + S1x2048.size a ≤ S32768x2048.size a)
    (s0 : ∀ a, (Rect.unit (s := S32768x2048) o0 S1x2048.size i0).stride a = 1) (s1 : ∀ a, (Rect.unit (s := S32768x2048) o1 S1x2048.size i1).stride a = 1)
    (s2 : ∀ a, (Rect.unit (s := S32768x2048) o2 S1x2048.size i2).stride a = 1) (s3 : ∀ a, (Rect.unit (s := S32768x2048) o3 S1x2048.size i3).stride a = 1)
    (j0 : ∀ a, (![0, 0] : Fin 2 → ℕ) a + S1x2048.size a ≤ S4x2048.size a) (j1 : ∀ a, (![1, 0] : Fin 2 → ℕ) a + S1x2048.size a ≤ S4x2048.size a)
    (j2 : ∀ a, (![2, 0] : Fin 2 → ℕ) a + S1x2048.size a ≤ S4x2048.size a) (j3 : ∀ a, (![3, 0] : Fin 2 → ℕ) a + S1x2048.size a ≤ S4x2048.size a) :
    v.read (Elt F) (v.writes (Elt F) f0
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩])
      = rowsOf ft r0 r1 r2 r3 := by
  funext y
  have hy0 : (y 0).val < 4 := (y 0).isLt
  have hy1 : (y 1).val < 2048 := (y 1).isLt
  refine View.read_writes_apply_of_pieces v f0 (rowsOf ft r0 r1 r2 r3) _ ?_ y ?_
  · intro p hp x
    have hx0 : (x 0).val < 1 := by
      rcases List.mem_cons.mp hp with rfl | hp
      · exact (x 0).isLt
      rcases List.mem_cons.mp hp with rfl | hp
      · exact (x 0).isLt
      rcases List.mem_cons.mp hp with rfl | hp
      · exact (x 0).isLt
      rcases List.mem_cons.mp hp with rfl | hp
      · exact (x 0).isLt
      · exact absurd hp List.not_mem_nil
    rcases List.mem_cons.mp hp with rfl | hp
    · refine (row_payload ft o3 r3 e3 l3 i3 s3 x).trans ?_
      unfold rowsOf
      congr 1
      funext a; refine Fin.ext ?_
      match a with
      | ⟨0, _⟩ =>
        have e : (((Rect.unit (s := S4x2048) ![3, 0] S1x2048.size j3).emb x) 0).val = 3 := by
          show 3 + 1 * (x 0).val = 3; omega
        show r3 = min (![r0, r1, r2, r3] ((Rect.unit (s := S4x2048) ![3, 0] S1x2048.size j3).emb x 0)) 32767
        rw [show ((Rect.unit (s := S4x2048) ![3, 0] S1x2048.size j3).emb x 0) = (3 : Fin 4) from Fin.ext e]
        show r3 = min r3 32767; omega
      | ⟨1, _⟩ => show (x 1).val = 0 + 1 * (x 1).val; omega
    rcases List.mem_cons.mp hp with rfl | hp
    · refine (row_payload ft o2 r2 e2 l2 i2 s2 x).trans ?_
      unfold rowsOf
      congr 1
      funext a; refine Fin.ext ?_
      match a with
      | ⟨0, _⟩ =>
        have e : (((Rect.unit (s := S4x2048) ![2, 0] S1x2048.size j2).emb x) 0).val = 2 := by
          show 2 + 1 * (x 0).val = 2; omega
        show r2 = min (![r0, r1, r2, r3] ((Rect.unit (s := S4x2048) ![2, 0] S1x2048.size j2).emb x 0)) 32767
        rw [show ((Rect.unit (s := S4x2048) ![2, 0] S1x2048.size j2).emb x 0) = (2 : Fin 4) from Fin.ext e]
        show r2 = min r2 32767; omega
      | ⟨1, _⟩ => show (x 1).val = 0 + 1 * (x 1).val; omega
    rcases List.mem_cons.mp hp with rfl | hp
    · refine (row_payload ft o1 r1 e1 l1 i1 s1 x).trans ?_
      unfold rowsOf
      congr 1
      funext a; refine Fin.ext ?_
      match a with
      | ⟨0, _⟩ =>
        have e : (((Rect.unit (s := S4x2048) ![1, 0] S1x2048.size j1).emb x) 0).val = 1 := by
          show 1 + 1 * (x 0).val = 1; omega
        show r1 = min (![r0, r1, r2, r3] ((Rect.unit (s := S4x2048) ![1, 0] S1x2048.size j1).emb x 0)) 32767
        rw [show ((Rect.unit (s := S4x2048) ![1, 0] S1x2048.size j1).emb x 0) = (1 : Fin 4) from Fin.ext e]
        show r1 = min r1 32767; omega
      | ⟨1, _⟩ => show (x 1).val = 0 + 1 * (x 1).val; omega
    rcases List.mem_cons.mp hp with rfl | hp
    · refine (row_payload ft o0 r0 e0 l0 i0 s0 x).trans ?_
      unfold rowsOf
      congr 1
      funext a; refine Fin.ext ?_
      match a with
      | ⟨0, _⟩ =>
        have e : (((Rect.unit (s := S4x2048) ![0, 0] S1x2048.size j0).emb x) 0).val = 0 := by
          show 0 + 1 * (x 0).val = 0; omega
        show r0 = min (![r0, r1, r2, r3] ((Rect.unit (s := S4x2048) ![0, 0] S1x2048.size j0).emb x 0)) 32767
        rw [show ((Rect.unit (s := S4x2048) ![0, 0] S1x2048.size j0).emb x 0) = (0 : Fin 4) from Fin.ext e]
        show r0 = min r0 32767; omega
      | ⟨1, _⟩ => show (x 1).val = 0 + 1 * (x 1).val; omega
    · exact absurd hp List.not_mem_nil
  · -- the four rows cover the array: index y lies in the row its first coordinate names
    have mem : ∀ (b : ℕ) (jb : ∀ a, (![b, 0] : Fin 2 → ℕ) a + S1x2048.size a ≤ S4x2048.size a), (y 0).val = b →
        y ∈ (Rect.unit (s := S4x2048) ![b, 0] S1x2048.size jb).set := fun b jb hb =>
      Rect.mem_set_unit.mpr fun a => match a with
        | ⟨0, _⟩ => ⟨by show b ≤ (y 0).val; omega, by show (y 0).val < b + 1; omega⟩
        | ⟨1, _⟩ => ⟨Nat.zero_le _, by show (y 1).val < 0 + 2048; omega⟩
    rcases (by omega : (y 0).val = 3 ∨ (y 0).val = 2 ∨ (y 0).val = 1 ∨ (y 0).val = 0) with h | h | h | h
    · exact ⟨_, List.mem_cons_self, mem 3 j3 h⟩
    · exact ⟨_, List.mem_cons_of_mem _ List.mem_cons_self, mem 2 j2 h⟩
    · exact ⟨_, List.mem_cons_of_mem _ (List.mem_cons_of_mem _ List.mem_cons_self), mem 1 j1 h⟩
    · exact ⟨_, List.mem_cons_of_mem _ (List.mem_cons_of_mem _ (List.mem_cons_of_mem _ List.mem_cons_self)), mem 0 j0 h⟩

/-! ## The sequencer's scoped storage: two DMA semaphores and the scalar-memory buffer -/

variable [FloatOps F] (d : Dev nD)

abbrev cellA (c : Fin τ.nSC) : GSem nD τ sig := (S d c, .dma cc0_scratch1.sem)
abbrev cellB (c : Fin τ.nSC) : GSem nD τ sig := (S d c, .dma cc0_scoped0.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scratch1.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped0.sem : SemLoc sig).isScoped .scScalar = true; decide⟩⟩)]

omit [FloatOps F] in
theorem ownBufs_S (c : Fin τ.nSC) :
    (ownBufs (S d c) : sProp 𝕄) = iprop((∃ f, (S d c).loc cc0_scratch0 ↦{fullShare} f)
      ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- The four arrays whole, as the TensorCore hands them over. -/
abbrev pPts (f : Buf (Elt F) (pLoc d)) : sProp 𝕄 := pLoc d ↦{fullShare} f
abbrev tPts (f : Buf (Elt F) (tLoc d)) : sProp 𝕄 := tLoc d ↦{fullShare} f
abbrev aPts (f : Buf (Elt F) (aLoc d)) : sProp 𝕄 := aLoc d ↦{fullShare} f
abbrev bPts (f : Buf (Elt F) (bLoc d)) : sProp 𝕄 := bLoc d ↦{fullShare} f
/-- A share of the table as the sequencer's memref addresses it. -/
abbrev tTok (c : Fin τ.nSC) (q : PosShare TreeShare) (f : Buf (Elt F) (tLoc d)) : sProp 𝕄 := (tW).view.loc (S d c) ↦{q} f

omit [FloatOps F] in
theorem pts_p (c : Fin τ.nSC) (f : Buf (Elt F) (pLoc d)) : ((pW).view.loc (S d c) ↦{fullShare} f : sProp 𝕄) = pLoc d ↦{fullShare} f := by
  simp only [Memref.view_whole, View.set_whole]
omit [FloatOps F] in
theorem pts_t (c : Fin τ.nSC) (q : PosShare TreeShare) (f : Buf (Elt F) (tLoc d)) : ((tW).view.loc (S d c) ↦{q} f : sProp 𝕄) = tLoc d ↦{q} f := by
  simp only [Memref.view_whole, View.set_whole]
omit [FloatOps F] in
theorem pts_a (c : Fin τ.nSC) (f : Buf (Elt F) (aLoc d)) : ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) : ((bW).view.loc (S d c) ↦{fullShare} f : sProp 𝕄) = bLoc d ↦{fullShare} f := by
  simp only [Memref.view_whole, View.set_whole]
omit [FloatOps F] in
theorem pts_s (c : Fin τ.nSC) (f : Buf (Elt F) ((S d c).loc cc0_scratch0)) : ((sW).view.loc (S d c) ↦{fullShare} f : sProp 𝕄) = (S d c).loc cc0_scratch0 ↦{fullShare} f := by
  simp only [Memref.view_whole, View.set_whole]

/-- The k-th of the eight read shares the table is split into (each copy reads the table through one of them), and
    what is left of the full share beside them. -/
def rdShare (k : ℕ) : PosShare TreeShare := Transfers.shareTokN fullShare k
def rdRest : PosShare TreeShare := Transfers.shareDrop fullShare 8

/-- The eight read shares of the table and the remainder are the table whole. -/
theorem toks_split (c : Fin τ.nSC) (ft : Buf (Elt F) (tLoc d)) :
    (tTok d c fullShare ft : sProp 𝕄) ⊢ iprop(tTok d c rdRest ft
        ∗ tTok d c (rdShare 0) ft ∗ tTok d c (rdShare 1) ft
        ∗ tTok d c (rdShare 2) ft ∗ tTok d c (rdShare 3) ft
        ∗ tTok d c (rdShare 4) ft ∗ tTok d c (rdShare 5) ft
        ∗ tTok d c (rdShare 6) ft ∗ tTok d c (rdShare 7) ft) :=
  (Transfers.pointsTo_toks_range (Ix := HIx 1) (Name := ℕ) (U := UU) (Lvl := ℕ) fullShare 8).1.trans
    (Entails.of_eq (by
      unfold rdShare rdRest
      rw [show Finset.range 8 = {0, 1, 2, 3, 4, 5, 6, 7} by decide, SparseCore.bigSep_insert' (by decide), SparseCore.bigSep_insert' (by decide),
        SparseCore.bigSep_insert' (by decide), SparseCore.bigSep_insert' (by decide), SparseCore.bigSep_insert' (by decide),
        SparseCore.bigSep_insert' (by decide), SparseCore.bigSep_insert' (by decide), bigSep_singleton]))

theorem toks_join (c : Fin τ.nSC) (ft : Buf (Elt F) (tLoc d)) :
    iprop(tTok d c rdRest ft
        ∗ tTok d c (rdShare 0) ft ∗ tTok d c (rdShare 1) ft
        ∗ tTok d c (rdShare 2) ft ∗ tTok d c (rdShare 3) ft
        ∗ tTok d c (rdShare 4) ft ∗ tTok d c (rdShare 5) ft
        ∗ tTok d c (rdShare 6) ft ∗ tTok d c (rdShare 7) ft) ⊢ (tTok d c fullShare ft : sProp 𝕄) :=
  (Entails.of_eq (by
      unfold rdShare rdRest
      rw [show Finset.range 8 = {0, 1, 2, 3, 4, 5, 6, 7} by decide, SparseCore.bigSep_insert' (by decide), SparseCore.bigSep_insert' (by decide),
        SparseCore.bigSep_insert' (by decide), SparseCore.bigSep_insert' (by decide), SparseCore.bigSep_insert' (by decide),
        SparseCore.bigSep_insert' (by decide), SparseCore.bigSep_insert' (by decide), bigSep_singleton])).trans
    (Transfers.pointsTo_toks_range (Ix := HIx 1) (Name := ℕ) (U := UU) (Lvl := ℕ) fullShare 8).2

/-- A wait at index `none` recorded on top of waits that are in `W` or at `none`. -/
theorem waits_insert {W W' : Waits sig (HIx 1)} (h : ∀ p ∈ W', p ∈ W ∨ p.2 = none) (sm : SemLoc sig) :
    ∀ p ∈ insert (sm, (default : HIx 1)) W', p ∈ W ∨ p.2 = none := fun p hp => by
  rcases Finset.mem_insert.mp hp with rfl | hp
  · exact .inr rfl
  · exact h p hp

/-! ## The body -/

/-- The word the sequencer reads back at index `k` of its scalar memory, after the positions were copied into it. -/
abbrev wordAt (fp fs : (⟨S8, .i32⟩ : BufTy).Contents (Elt F)) (k : Fin 8)
    (hk : ∀ a, (![k.val] : Fin 1 → ℕ) a + S1.size a ≤ S8.size a) (h1 : 0 < (Rect.unit (s := S8) ![k.val] S1.size hk).toLoadRect.shape.numel) : BitVec 32 :=
  View.readAt (Elt F) (sW).view (Rect.unit (s := S8) ![k.val] S1.size hk).toLoadRect
    (View.write (Elt F) (sW).view fs (ReadAs.same.apply (View.read (Elt F) (pW).view fp)) Finset.univ) (Shape.Idx.first h1)

omit [FloatOps F] in
theorem word_lt (fp fs : (⟨S8, .i32⟩ : BufTy).Contents (Elt F)) (hr : ∀ k : Fin 8, BitVec.toNat (fp (ix1 k)) < 8192) (k : Fin 8) (hk) (h1) :
    BitVec.toNat (wordAt (F := F) fp fs k hk h1) < 8192 := by
  rw [wordAt, word_eq]; exact hr k

omit [FloatOps F] in
theorem rowAt_lt (fp : S8.Idx → BitVec 32) (hr : ∀ k : Fin 8, BitVec.toNat (fp (ix1 k)) < 8192) (h : Fin 2) (b : Fin 4) : rowAt fp h b < 32768 := by
  unfold rowAt
  have := hr (⟨4 * h.val + b.val, by omega⟩ : Fin 8)
  have := b.isLt
  omega

section Offsets
variable (fp fs : (⟨S8, .i32⟩ : BufTy).Contents (Elt F))
omit [FloatOps F]
theorem offA0 (hr : ∀ k : Fin 8, BitVec.toNat (fp (ix1 k)) < 8192) (hk) (h1) : k0_off1 (wordAt (F := F) fp fs 0 hk h1) = ![rowAt fp 0 0, 0] := by
  rw [wordAt, word_eq]; exact (off1_eq _ (hr 0)).trans rfl
theorem offB0 (hr : ∀ k : Fin 8, BitVec.toNat (fp (ix1 k)) < 8192) (hk) (h1) : k0_off2 (wordAt (F := F) fp fs 4 hk h1) = ![rowAt fp 1 0, 0] := by
  rw [wordAt, word_eq]; exact (off2_eq _ (hr 4)).trans rfl
theorem offA1 (hr : ∀ k : Fin 8, BitVec.toNat (fp (ix1 k)) < 8192) (hk) (h1) : k0_off3 (wordAt (F := F) fp fs 1 hk h1) = ![rowAt fp 0 1, 0] := by
  rw [wordAt, word_eq]; exact (off3_eq _ (hr 1)).trans rfl
theorem offB1 (hr : ∀ k : Fin 8, BitVec.toNat (fp (ix1 k)) < 8192) (hk) (h1) : k0_off4 (wordAt (F := F) fp fs 5 hk h1) = ![rowAt fp 1 1, 0] := by
  rw [wordAt, word_eq]; exact (off4_eq _ (hr 5)).trans rfl
theorem offA2 (hr : ∀ k : Fin 8, BitVec.toNat (fp (ix1 k)) < 8192) (hk) (h1) : k0_off5 (wordAt (F := F) fp fs 2 hk h1) = ![rowAt fp 0 2, 0] := by
  rw [wordAt, word_eq]; exact (off5_eq _ (hr 2)).trans rfl
theorem offB2 (hr : ∀ k : Fin 8, BitVec.toNat (fp (ix1 k)) < 8192) (hk) (h1) : k0_off6 (wordAt (F := F) fp fs 6 hk h1) = ![rowAt fp 1 2, 0] := by
  rw [wordAt, word_eq]; exact (off6_eq _ (hr 6)).trans rfl
theorem offA3 (hr : ∀ k : Fin 8, BitVec.toNat (fp (ix1 k)) < 8192) (hk) (h1) : k0_off7 (wordAt (F := F) fp fs 3 hk h1) = ![rowAt fp 0 3, 0] := by
  rw [wordAt, word_eq]; exact (off7_eq _ (hr 3)).trans rfl
theorem offB3 (hr : ∀ k : Fin 8, BitVec.toNat (fp (ix1 k)) < 8192) (hk) (h1) : k0_off8 (wordAt (F := F) fp fs 7 hk h1) = ![rowAt fp 1 3, 0] := by
  rw [wordAt, word_eq]; exact (off8_eq _ (hr 7)).trans rfl
end Offsets

omit [FloatOps F] in
/-- The first result array after its four rows have landed. -/
theorem rows_a (c : Fin τ.nSC) (fa : Buf (Elt F) (aLoc d)) (ft : Buf (Elt F) (tLoc d)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768) (i0) (i1) (i2) (i3) (s0) (s1) (s2) (s3) (j0) (j1) (j2) (j3) :
    ((aW).view.loc (S d c) ↦{fullShare} (aW).view.writes (Elt F) fa
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩] : sProp 𝕄)
      ⊢ aPts d (rowsOf ft r0 r1 r2 r3) := by
  rw [pts_a]
  refine Entails.of_eq (congrArg (fun g => (aLoc d ↦{fullShare} g : sProp 𝕄)) ?_)
  have h := read_rows (F := F) (aW).view fa ft o0 o1 o2 o3 r0 r1 r2 r3 e0 e1 e2 e3 l0 l1 l2 l3 i0 i1 i2 i3 s0 s1 s2 s3 j0 j1 j2 j3
  have hw : ∀ g : (aW).view.ty.Contents (Elt F), View.read (Elt F) (aW).view g = g := fun g => by
    simp only [Memref.view_whole, View.read_whole]
  exact (hw _).symm.trans h

omit [FloatOps F] in
/-- The second result array after its four rows have landed. -/
theorem rows_b (c : Fin τ.nSC) (fb : Buf (Elt F) (bLoc d)) (ft : Buf (Elt F) (tLoc d)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768) (i0) (i1) (i2) (i3) (s0) (s1) (s2) (s3) (j0) (j1) (j2) (j3) :
    ((bW).view.loc (S d c) ↦{fullShare} (bW).view.writes (Elt F) fb
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩] : sProp 𝕄)
      ⊢ bPts d (rowsOf ft r0 r1 r2 r3) := by
  rw [pts_b]
  refine Entails.of_eq (congrArg (fun g => (bLoc d ↦{fullShare} g : sProp 𝕄)) ?_)
  have h := read_rows (F := F) (bW).view fb ft o0 o1 o2 o3 r0 r1 r2 r3 e0 e1 e2 e3 l0 l1 l2 l3 i0 i1 i2 i3 s0 s1 s2 s3 j0 j1 j2 j3
  have hw : ∀ g : (bW).view.ty.Contents (Elt F), View.read (Elt F) (bW).view g = g := fun g => by
    simp only [Memref.view_whole, View.read_whole]
  exact (hw _).symm.trans h

-- the row offsets are words plus constants: only that each slice is a one-row window of the table is used, never their values
attribute [local irreducible] k0_off1 k0_off2 k0_off3 k0_off4 k0_off5 k0_off6 k0_off7 k0_off8

/-- The kernel on the sequencer of SparseCore `L 0` of device `d`: from the positions `fp` (each below 8192) and the
    table `ft`, the two results end at `gathered fp ft 0` and `gathered fp ft 1`; positions and table unchanged. -/
theorem body (L : grid0.Coords) (O : CellTallies nD τ sig (HIx 1)) (W : Waits sig (HIx 1)) (hO : ∀ g, O g none = 0)
    (fp : Buf (Elt F) (pLoc d)) (ft : Buf (Elt F) (tLoc d)) (hr : ∀ k : Fin 8, BitVec.toNat (fp (ix1 k)) < 8192) :
    iprop(levAts (K (F := F)).L (K (F := F)).lev ∗ emp
        ∗ (pPts d fp ∗ tPts d ft ∗ (∃ f, aPts d f) ∗ (∃ f, bPts d f))
        ∗ scopedBufs (S d ((L 0).castLE hcore0)) ∗ scopedSems0 (S d ((L 0).castLE hcore0)) ∗ owes (S d ((L 0).castLE hcore0)) O W)
      ⊢ wp frame (wpE (defs₀ (F := F)) 𝒱₀ (S d ((L 0).castLE hcore0)) none) Set.univ
          (cc0__entity_gather L pW (Memref.isWhole_whole _) tW (Memref.isWhole_whole _) aW (Memref.isWhole_whole _) bW (Memref.isWhole_whole _)
            sW (Memref.isWhole_whole _) cc0_scratch1 cc0_scoped0)
          fun _ => iprop((pPts d fp ∗ tPts d ft ∗ aPts d (gathered fp ft 0) ∗ bPts d (gathered fp ft 1))
            ∗ scopedBufs (S d ((L 0).castLE hcore0)) ∗ scopedSems0 (S d ((L 0).castLE hcore0))
            ∗ ∃ W', ⌜∀ p ∈ W', p ∈ W ∨ p.2 = none⌝ ∗ owes (S d ((L 0).castLE hcore0)) O W') := by
  have _plan : Transfers.BatchOf (S d ((L 0).castLE hcore0)) (SemLoc.dma (sig := sig) cc0_scratch1.sem) 8 (windows := true) := trivial
  simp only [cc0__entity_gather_eq_skeleton]; unfold cc0__entity_gather_skel
  iintro ⟨#Hlv, -, ⟨Hp, Ht, ⟨%fa, Ha⟩, ⟨%fb, Hb⟩⟩, Hsb, Hss, HO⟩
  ihave Hss' := (SparseCore.Cfg.scopedSems0_S_elim (Val := Elt F) d ((L 0).castLE hcore0)) $$ Hss
  icases Hss' with ⟨Hown, Hsubs⟩
  ihave Hown' := (Entails.of_eq (ownSems0_S (F := F) d ((L 0).castLE hcore0))) $$ Hown
  icases Hown' with ⟨HsemA, HsemB, Hrest⟩
  ihave Hsb' := ((K (F := F)).scopedBufs_S_elim facts d ((L 0).castLE hcore0)) $$ Hsb
  icases Hsb' with ⟨Hob, Hvb⟩
  ihave Hob' := (Entails.of_eq (ownBufs_S (F := F) d ((L 0).castLE hcore0))) $$ Hob
  icases Hob' with ⟨⟨%fs, Hs⟩, Hbrest⟩
  ihave Hmw := ((K (F := F)).mayWaits_none (thr := S d ((L 0).castLE hcore0)) hO) $$ Hlv
  ihave Hp' := (Entails.of_eq (pts_p (F := F) d ((L 0).castLE hcore0) _).symm) $$ Hp
  ihave Ht' := (Entails.of_eq (pts_t (F := F) d ((L 0).castLE hcore0) _ _).symm) $$ Ht
  ihave Ha' := (Entails.of_eq (pts_a (F := F) d ((L 0).castLE hcore0) _).symm) $$ Ha
  ihave Hb' := (Entails.of_eq (pts_b (F := F) d ((L 0).castLE hcore0) _).symm) $$ Hb
  ihave Hs' := (Entails.of_eq (pts_s (F := F) d ((L 0).castLE hcore0) _).symm) $$ Hs
  ihave Ht8 := (toks_split (F := F) d ((L 0).castLE hcore0) ft) $$ Ht'
  icases Ht8 with ⟨Htr, Ht0, Ht1, Ht2, Ht3, Ht4, Ht5, Ht6, Ht7⟩
  sl_exec (disch := first
    | (guard_target = k0_chk1 _; exact chk1_of _ (word_lt (F := F) fp _ hr 0 _ _))
    | (guard_target = k0_chk2 _; exact chk2_of _ (word_lt (F := F) fp _ hr 4 _ _))
    | (guard_target = k0_chk3 _; exact chk3_of _ (word_lt (F := F) fp _ hr 1 _ _))
    | (guard_target = k0_chk4 _; exact chk4_of _ (word_lt (F := F) fp _ hr 5 _ _))
    | (guard_target = k0_chk5 _; exact chk5_of _ (word_lt (F := F) fp _ hr 2 _ _))
    | (guard_target = k0_chk6 _; exact chk6_of _ (word_lt (F := F) fp _ hr 6 _ _))
    | (guard_target = k0_chk7 _; exact chk7_of _ (word_lt (F := F) fp _ hr 3 _ _))
    | (guard_target = k0_chk8 _; exact chk8_of _ (word_lt (F := F) fp _ hr 7 _ _)))
  sl_step
  isplitl [Hp' Htr Ht0 Ht1 Ht2 Ht3 Ht4 Ht5 Ht6 Ht7 Ha' Hb']
  · isplitl [Hp']; · iapply (Entails.of_eq (pts_p (F := F) d _ _)); iexact Hp'
    isplitl [Htr Ht0 Ht1 Ht2 Ht3 Ht4 Ht5 Ht6 Ht7]
    · iapply (Entails.of_eq (pts_t (F := F) d ((L 0).castLE hcore0) fullShare ft))
      iapply (toks_join (F := F) d ((L 0).castLE hcore0) ft)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Ha']
    · iapply (rows_a (F := F) d ((L 0).castLE hcore0) fa ft _ _ _ _ (rowAt fp 0 0) (rowAt fp 0 1) (rowAt fp 0 2) (rowAt fp 0 3)
        (offA0 (F := F) fp fs hr _ _) (offA1 (F := F) fp fs hr _ _) (offA2 (F := F) fp fs hr _ _) (offA3 (F := F) fp fs hr _ _)
        (rowAt_lt fp hr 0 0) (rowAt_lt fp hr 0 1) (rowAt_lt fp hr 0 2) (rowAt_lt fp hr 0 3) _ _ _ _ _ _ _ _ _ _ _ _)
      iexact Ha'
    · iapply (rows_b (F := F) d ((L 0).castLE hcore0) fb ft _ _ _ _ (rowAt fp 1 0) (rowAt fp 1 1) (rowAt fp 1 2) (rowAt fp 1 3)
        (offB0 (F := F) fp fs hr _ _) (offB1 (F := F) fp fs hr _ _) (offB2 (F := F) fp fs hr _ _) (offB3 (F := F) fp fs hr _ _)
        (rowAt_lt fp hr 1 0) (rowAt_lt fp hr 1 1) (rowAt_lt fp hr 1 2) (rowAt_lt fp hr 1 3) _ _ _ _ _ _ _ _ _ _ _ _)
      iexact Hb'
  isplitl [Hs' Hbrest Hvb]
  · iapply ((K (F := F)).scopedBufs_S_intro facts d ((L 0).castLE hcore0))
    isplitl [Hs' Hbrest]
    · rw [ownBufs_S]
      isplitl [Hs']
      · iexists _; iapply (Entails.of_eq (pts_s (F := F) d _ _)); iexact Hs'
      · iexact Hbrest
    · iexact Hvb
  isplitl [HsemA HsemB Hrest Hsubs]
  · iapply (SparseCore.Cfg.scopedSems0_S_intro (Val := Elt F) d ((L 0).castLE hcore0))
    isplitl [HsemA HsemB Hrest]
    · rw [ownSems0_S]
      isplitl [HsemA]; · iexact HsemA
      isplitl [HsemB]; · iexact HsemB
      iexact Hrest
    · iexact Hsubs
  iexists _; isplitr
  rotate_left
  · iexact HO
  · ipureintro
    iterate 9 refine waits_insert ?_ _
    exact fun p hp => .inl hp

end Cert.Proof.KB

end
-- ==== Proof.KB.Main.lean ====
/-
  The launch: @main on the TensorCore, the call's payload, and the run of the whole family of threads.

  @main flattens the embeddings [4, 8192, 2048] to the table [32768, 2048], takes column 0 of each position array,
  joins the two columns into the positions [8], starts the one SparseCore call and returns. The call takes the
  positions, the table and the two result arrays to SparseCore 0's sequencer and brings them back with the results
  written. Every argument array is read only, so it ends at its launch contents.
-/
import proofs.«207034_g45122926411967_cont_8to1c4_813_9_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "pW" => (Memref.whole Cert.Kernel.main_v5_scs : Memref Cert.Kernel.sig Kind.scScalar Space.hbm Cert.Kernel.S8 EltTy.i32)
local notation "tW" => (Memref.whole Cert.Kernel.main_v0_scs : Memref Cert.Kernel.sig Kind.scScalar Space.hbm Cert.Kernel.S32768x2048 EltTy.f32)
local notation "aW" => (Memref.whole Cert.Kernel.main_v6_0_scs : Memref Cert.Kernel.sig Kind.scScalar Space.hbm Cert.Kernel.S4x2048 EltTy.f32)
local notation "bW" => (Memref.whole Cert.Kernel.main_v6_1_scs : Memref Cert.Kernel.sig Kind.scScalar Space.hbm Cert.Kernel.S4x2048 EltTy.f32)
local notation "sW" => (Memref.whole Cert.Kernel.cc0_scratch0 : Memref Cert.Kernel.sig Kind.scScalar Space.smem Cert.Kernel.S8 EltTy.i32)

variable (m : (ℓ : Loc nD τ sig) → Buf (Elt F) ℓ) (ρ : Dev nD → PrngReg)

/-! ## @main's operations before the call, and the arrays at the call -/

abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev t' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev p' : DevRef τ sig := Proc.devRef .tc (main_v5 : Ref sig .tc)
abbrev a' : DevRef τ sig := Proc.devRef .tc (main_v6_0 : Ref sig .tc)
abbrev b' : DevRef τ sig := Proc.devRef .tc (main_v6_1 : Ref sig .tc)

variable [FloatOps F]

abbrev op0 : HloOp τ sig (Elt F) := StableHlo.reshape main_arg0 main_v0 rfl shapeCasts_S4x8192x2048_S32768x2048
abbrev op1 : HloOp τ sig (Elt F) := StableHlo.unary main_arg1 main_v1
  ((extractStridedSlice S4x1 ![0, 0] · slices_S4x2_S4x1_0_0) : (⟨S4x2, .i32⟩ : BufTy).Contents (Elt F) → (⟨S4x1, .i32⟩ : BufTy).Contents (Elt F))
abbrev op2 : HloOp τ sig (Elt F) := StableHlo.reshape main_v1 main_v2 rfl shapeCasts_S4x1_S4
abbrev op3 : HloOp τ sig (Elt F) := StableHlo.unary main_arg2 main_v3
  ((extractStridedSlice S4x1 ![0, 0] · slices_S4x2_S4x1_0_0) : (⟨S4x2, .i32⟩ : BufTy).Contents (Elt F) → (⟨S4x1, .i32⟩ : BufTy).Contents (Elt F))
abbrev op4 : HloOp τ sig (Elt F) := StableHlo.reshape main_v3 main_v4 rfl shapeCasts_S4x1_S4
abbrev op5 : HloOp τ sig (Elt F) := StableHlo.binary main_v2 main_v4 main_v5
  ((fun a b => concatenate S8 0 [⟨S4, a⟩, ⟨S4, b⟩] concatenates_S4_S4_S8_d0) : (⟨S4, .i32⟩ : BufTy).Contents (Elt F) → (⟨S4, .i32⟩ : BufTy).Contents (Elt F) → (⟨S8, .i32⟩ : BufTy).Contents (Elt F))

abbrev hostOps : List (HloOp τ sig (Elt F)) := [op0, op1, op2, op3, op4, op5]

/-- The launch valuation, and the valuation at the call. -/
def V0 (d : Dev nD) : Valuation τ sig (Elt F) := fun b => m (d, b)
def Vc (d : Dev nD) : Valuation τ sig (Elt F) := StableHlo.after hostOps (V0 m d)

/-- The positions and the table as the call finds them. -/
abbrev fpos (d : Dev nD) : Buf (Elt F) (pLoc d) := Vc m d p'
abbrev ftab (d : Dev nD) : Buf (Elt F) (tLoc d) := Vc m d t'

/-- The TensorCore's arrays, all unscoped. -/
abbrev S12 : Finset (DevRef τ sig) := {x0', x1', x2', x3', t', v1', v2', v3', v4', p', a', b'}

omit [FloatOps F] in
theorem held_S12 (d : Dev nD) (W : Valuation τ sig (Elt F)) :
    (held (T d) S12 W : sProp 𝕄)
      = iprop(((SparseCore.T d).loc main_arg0 ↦{fullShare} W x0') ∗ ((SparseCore.T d).loc main_arg1 ↦{fullShare} W x1')
          ∗ ((SparseCore.T d).loc main_arg2 ↦{fullShare} W x2') ∗ ((SparseCore.T d).loc main_arg3 ↦{fullShare} W x3')
          ∗ (tLoc d ↦{fullShare} W t') ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_v4 ↦{fullShare} W v4')
          ∗ (pLoc d ↦{fullShare} W p') ∗ (aLoc d ↦{fullShare} W a') ∗ bLoc d ↦{fullShare} W b') := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_arg3 ↦{fullShare} W main_arg3)
          ∗ (tLoc d ↦{fullShare} W main_v0) ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ (pLoc d ↦{fullShare} W main_v5) ∗ (aLoc d ↦{fullShare} W main_v6_0) ∗ bLoc d ↦{fullShare} W main_v6_1) := by
  unfold unscopedBufs
  rw [show (Finset.univ.filter fun b : Ref sig .tc => ¬ b.isScoped)
      = {main_arg0, main_arg1, main_arg2, main_arg3, main_v0, main_v1, main_v2, main_v3, main_v4, main_v5, main_v6_0, main_v6_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S12 (V0 m d) := by
  rw [unscopedBufs_eq, held_S12]; rfl

/-- The arrays after @main's six operations, as the steps leave them. -/
theorem held_Vc (d : Dev nD) :
    (held (T d) S12 ((op5 (F := F)).result ((op4 (F := F)).result ((op3 (F := F)).result ((op2 (F := F)).result ((op1 (F := F)).result
        ((op0 (F := F)).result (V0 m d))))))) : sProp 𝕄)
      = iprop(((SparseCore.T d).loc main_arg0 ↦{fullShare} Vc m d x0') ∗ ((SparseCore.T d).loc main_arg1 ↦{fullShare} Vc m d x1')
          ∗ ((SparseCore.T d).loc main_arg2 ↦{fullShare} Vc m d x2') ∗ ((SparseCore.T d).loc main_arg3 ↦{fullShare} Vc m d x3')
          ∗ (tLoc d ↦{fullShare} Vc m d t') ∗ ((SparseCore.T d).loc main_v1 ↦{fullShare} Vc m d v1') ∗ ((SparseCore.T d).loc main_v2 ↦{fullShare} Vc m d v2')
          ∗ ((SparseCore.T d).loc main_v3 ↦{fullShare} Vc m d v3') ∗ ((SparseCore.T d).loc main_v4 ↦{fullShare} Vc m d v4')
          ∗ (pLoc d ↦{fullShare} Vc m d p') ∗ (aLoc d ↦{fullShare} Vc m d a') ∗ bLoc d ↦{fullShare} Vc m d b') := by
  show held (SparseCore.T d) S12 (Vc m d) = _
  exact held_S12 d (Vc m d)

/-- No operation before the call writes an argument. -/
theorem Vc_x0 (d : Dev nD) : Vc m d x0' = m ((SparseCore.T d).loc main_arg0) := by
  unfold Vc; after_results; rfl
theorem Vc_x1 (d : Dev nD) : Vc m d x1' = m ((SparseCore.T d).loc main_arg1) := by
  unfold Vc; after_results; rfl
theorem Vc_x2 (d : Dev nD) : Vc m d x2' = m ((SparseCore.T d).loc main_arg2) := by
  unfold Vc; after_results; rfl
theorem Vc_x3 (d : Dev nD) : Vc m d x3' = m ((SparseCore.T d).loc main_arg3) := by
  unfold Vc; after_results; rfl

theorem h0 : (op0 (F := F)).bufs ⊆ S12 := show ({x0', t'} : Finset (DevRef τ sig)) ⊆ S12 by decide
theorem h1 : (op1 (F := F)).bufs ⊆ S12 := show ({x1', v1'} : Finset (DevRef τ sig)) ⊆ S12 by decide
theorem h2 : (op2 (F := F)).bufs ⊆ S12 := show ({v1', v2'} : Finset (DevRef τ sig)) ⊆ S12 by decide
theorem h3 : (op3 (F := F)).bufs ⊆ S12 := show ({x2', v3'} : Finset (DevRef τ sig)) ⊆ S12 by decide
theorem h4 : (op4 (F := F)).bufs ⊆ S12 := show ({v3', v4'} : Finset (DevRef τ sig)) ⊆ S12 by decide
theorem h5 : (op5 (F := F)).bufs ⊆ S12 := show ({v2', v4', p'} : Finset (DevRef τ sig)) ⊆ S12 by decide

/-! ## What the handshakes carry -/

/-- Call 0 takes the positions, the table and the two result arrays (whatever they hold) to SparseCore 0 and brings
    them back, the results written; the kernel's proof consumes nothing of the launch's. -/
def P : (K (F := F)).Pay (nD := nD) (Val := Elt F) (Name := ℕ) (U := UU) where
  st := fun _ d _ => iprop(pPts d (fpos m d) ∗ tPts d (ftab m d) ∗ (∃ f, aPts d f) ∗ ∃ f, bPts d f)
  dn := fun _ d _ => iprop(pPts d (fpos m d) ∗ tPts d (ftab m d) ∗ aPts d (gathered (fpos m d) (ftab m d) 0) ∗ bPts d (gathered (fpos m d) (ftab m d) 1))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__entity_gather (coordsS c) pW (Memref.isWhole_whole _) tW (Memref.isWhole_whole _)
          aW (Memref.isWhole_whole _) bW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `ScalarObl` at call 0, from positions below 8192. -/
theorem scalarObl (hr : ∀ (d : Dev nD) (k : Fin 8), BitVec.toNat (fpos m d (ix1 k)) < 8192) :
    (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body (F := F) d (coordsS ⟨_, hc⟩) O W hO (fpos m d) (ftab m d) (hr d)).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) : (bigSep Finset.univ fun c : Fin ((K (F := F)).nCore 0) => (P m).st 0 d c)
    = iprop(pPts d (fpos m d) ∗ tPts d (ftab m d) ∗ (∃ f, aPts d f) ∗ ∃ f, bPts d f) :=
  bigSep_univ_of_subsingleton (0 : Fin 1)
theorem dn0_eq (d : Dev nD) : (bigSep Finset.univ fun c : Fin ((K (F := F)).nCore 0) => (P m).dn 0 d c)
    = iprop(pPts d (fpos m d) ∗ tPts d (ftab m d) ∗ aPts d (gathered (fpos m d) (ftab m d) 0) ∗ bPts d (gathered (fpos m d) (ftab m d) 1)) :=
  bigSep_univ_of_subsingleton (0 : Fin 1)

/-- What @main leaves the claim: the four arguments at their launch contents and the two results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ aPts d (gathered (fpos m d) (ftab m d) 0) ∗ bPts d (gathered (fpos m d) (ftab m d) 1))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S12) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S12) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S12) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S12) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S12) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S12) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call
  ihave Hh := (Entails.of_eq (held_Vc (F := F) m d)) $$ Hheld
  icases Hh with ⟨Hx0, Hx1, Hx2, Hx3, Ht, Hv1, Hv2, Hv3, Hv4, Hp, Ha, Hb2⟩
  iapply ((K (F := F)).wp_run (D (F := F)) 𝒱 (EH := EH) (P := P m) κ d 0) $$ [Hst Hx0 Hx1 Hx2 Hx3 Ht Hp Ha Hb2]
  isplitr; · iexact Hctx
  isplitl [Hst]; · iexact Hst
  isplitl [Hp Ht Ha Hb2]
  · rw [st0_eq]
    isplitl [Hp]; · iexact Hp
    isplitl [Ht]; · iexact Ht
    isplitl [Ha]; · iexists _; iexact Ha
    iexists _; iexact Hb2
  iintro ⟨Hst, Hdn⟩
  ihave Hdn' := (Entails.of_eq (dn0_eq m d)) $$ Hdn
  icases Hdn' with ⟨Hp, Ht, Ha, Hb2⟩
  ihave Hx0' := (Entails.of_eq (congrArg (fun g => ((SparseCore.T d).loc main_arg0 ↦{fullShare} g : sProp 𝕄)) (Vc_x0 m d))) $$ Hx0
  ihave Hx1' := (Entails.of_eq (congrArg (fun g => ((SparseCore.T d).loc main_arg1 ↦{fullShare} g : sProp 𝕄)) (Vc_x1 m d))) $$ Hx1
  ihave Hx2' := (Entails.of_eq (congrArg (fun g => ((SparseCore.T d).loc main_arg2 ↦{fullShare} g : sProp 𝕄)) (Vc_x2 m d))) $$ Hx2
  ihave Hx3' := (Entails.of_eq (congrArg (fun g => ((SparseCore.T d).loc main_arg3 ↦{fullShare} g : sProp 𝕄)) (Vc_x3 m d))) $$ Hx3
  imodintro
  isplitl [Hst]; · iexact Hst
  isplitl [Hx0']; · iexact Hx0'
  isplitl [Hx1']; · iexact Hx1'
  isplitl [Hx2']; · iexact Hx2'
  isplitl [Hx3']; · iexact Hx3'
  isplitl [Ha]; · iexact Ha
  iexact Hb2

/-- What the final memory holds at the claim's arrays, on device `d`. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem (aLoc d) = gathered (fpos m d) (ftab m d) 0
  ∧ s'.mem.mem (bLoc d) = gathered (fpos m d) (ftab m d) 1

omit [FloatOps F] in
/-- An array held whole agrees with the memory. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro ⟨HSI, Hx⟩
  icombine HSI Hx gives %hx
  isplitr
  · ipureintro; exact funext fun i => hx i (Finset.mem_univ i)
  isplitl [HSI] <;> iassumption

theorem hfin (d : Dev nD) (s' : Phys nD τ sig (Elt F)) : iprop(FIN m d ∗ SI s') ⊢ (⌜fq m d s'⌝ : sProp 𝕄) := by
  iintro ⟨⟨H0, H1, H2, H3, Ha, Hb⟩, HSI⟩
  ihave G0 := (agree (F := F) s' _ _) $$ [HSI H0]
  · isplitl [HSI] <;> iassumption
  icases G0 with ⟨%e0, HSI, -⟩
  ihave G1 := (agree (F := F) s' _ _) $$ [HSI H1]
  · isplitl [HSI] <;> iassumption
  icases G1 with ⟨%e1, HSI, -⟩
  ihave G2 := (agree (F := F) s' _ _) $$ [HSI H2]
  · isplitl [HSI] <;> iassumption
  icases G2 with ⟨%e2, HSI, -⟩
  ihave G3 := (agree (F := F) s' _ _) $$ [HSI H3]
  · isplitl [HSI] <;> iassumption
  icases G3 with ⟨%e3, HSI, -⟩
  ihave G4 := (agree (F := F) s' _ _) $$ [HSI Ha]
  · isplitl [HSI] <;> iassumption
  icases G4 with ⟨%e4, HSI, -⟩
  ihave G5 := (agree (F := F) s' _ _) $$ [HSI Hb]
  · isplitl [HSI] <;> iassumption
  icases G5 with ⟨%e5, -, -⟩
  ipureintro
  exact ⟨e0, e1, e2, e3, e4, e5⟩

/-! ## The program's run -/

/-- Every device ends with the two results at `gathered` of the positions and the table as the call found them,
    and the four arguments at their launch contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem (aLoc c) = gathered (fpos m c) (ftab m c) 0
  ∧ r.2.mem (bLoc c) = gathered (fpos m c) (ftab m c) 1

theorem run_main [∀ e, Nonempty (Elt F e)] (hr : ∀ (d : Dev nD) (k : Fin 8), BitVec.toNat (fpos m d (ix1 k)) < 8192) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hr)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KB

end
-- ==== Proof.KI.Setup.lean ====
/-
  The idealized kernel program as the SparseCore launch theorem sees it, and the ghost state of its proof.

  One scalar-subcore call on SparseCore 0. Its sequencer copies the eight positions into its scalar memory,
  then starts eight one-row copies out of the flattened table [32768, 2048] into the rows of the two results
  [4, 2048] — all eight on ONE DMA semaphore — and only then waits eight times on it. Between the first start
  and the last wait nothing reads or writes a source row or a destination row, so after the last wait every
  row has landed whatever the order of completion.

  The call takes from the TensorCore the positions, the table and the two result arrays, and hands them back
  with result row b of the first array equal to table row pos[b] + 8192 b and of the second to table row
  pos[4 + b] + 8192 b. The only transfers are the sequencer's own, so the ghost state is the handshakes'
  rounds beside plain transfer counters and the kernel consumes nothing of the launch's.
-/
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207034_g45122926411967_cont_8to1c4_813_9_alg».proof.Proof.Gen.KernelIdeal
import proofs.«207034_g45122926411967_cont_8to1c4_813_9_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays the call moves -/

/-- The positions [8], the flattened table [32768, 2048] and the two results [4, 2048], as the TensorCore names them. -/
abbrev pLoc (d : Dev nD) : Loc nD τ sig := (SparseCore.T d).loc main_v5
abbrev tLoc (d : Dev nD) : Loc nD τ sig := (SparseCore.T d).loc main_v0
abbrev aLoc (d : Dev nD) : Loc nD τ sig := (SparseCore.T d).loc main_v6_0
abbrev bLoc (d : Dev nD) : Loc nD τ sig := (SparseCore.T d).loc main_v6_1

end Cert.Proof.KI

end
-- ==== Proof.KI.Body.lean ====
/-
  The sequencer's body, once, at a symbolic SparseCore.

  The positions land in the sequencer's scalar memory by one copy that is waited for at once; word k read back
  from there is position k. Under 0 ≤ pos[k] < 8192 the row offset pos[k] + 8192 b computed in 32-bit words does
  not wrap and stays below 32768, which is the side condition the body assumes before each slice of the table.
  The eight one-row copies are one batch on one semaphore: every copy is started, then the batch is drained by
  eight waits of one row's credit, and the last wait hands every row back at once. Each copy reads the table
  through a read share of the whole array, since nothing says two source rows differ. The four rows written to a
  result array cover it, so what the array holds afterwards is one function of the table and the positions,
  whatever it held before.
-/
import proofs.«207034_g45122926411967_cont_8to1c4_813_9_alg».proof.Proof.KI.Setup
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "pW" => (Memref.whole Cert.KernelIdeal.main_v5_scs : Memref Cert.KernelIdeal.sig Kind.scScalar Space.hbm Cert.KernelIdeal.S8 EltTy.i32)
local notation "tW" => (Memref.whole Cert.KernelIdeal.main_v0_scs : Memref Cert.KernelIdeal.sig Kind.scScalar Space.hbm Cert.KernelIdeal.S32768x2048 EltTy.f32)
local notation "aW" => (Memref.whole Cert.KernelIdeal.main_v6_0_scs : Memref Cert.KernelIdeal.sig Kind.scScalar Space.hbm Cert.KernelIdeal.S4x2048 EltTy.f32)
local notation "bW" => (Memref.whole Cert.KernelIdeal.main_v6_1_scs : Memref Cert.KernelIdeal.sig Kind.scScalar Space.hbm Cert.KernelIdeal.S4x2048 EltTy.f32)
local notation "sW" => (Memref.whole Cert.KernelIdeal.cc0_scratch0 : Memref Cert.KernelIdeal.sig Kind.scScalar Space.smem Cert.KernelIdeal.S8 EltTy.i32)

/-! ## What the result arrays hold: rows of the table -/

section Rows
variable {α : Type}

/-- The array [4, 2048] whose row b is row `r b` of the table (clamped into the table, which the rows met here
    never need). -/
def rowsOf (ft : S32768x2048.Idx → α) (r0 r1 r2 r3 : ℕ) : S4x2048.Idx → α :=
  fun j => ft (ix2 (⟨min (![r0, r1, r2, r3] (j 0)) 32767, by omega⟩ : Fin 32768) (j 1))

end Rows

/-- Table row pos[4 h + b] + 8192 b: the row the kernel copies into row b of result h. -/
def rowAt (fp : S8.Idx → BitVec 32) (h : Fin 2) (b : Fin 4) : ℕ :=
  (fp (ix1 (⟨4 * h.val + b.val, by omega⟩ : Fin 8))).toNat + 8192 * b.val

/-- Result h as a function of the positions and the table. -/
abbrev gathered {α : Type} (fp : S8.Idx → BitVec 32) (ft : S32768x2048.Idx → α) (h : Fin 2) : S4x2048.Idx → α :=
  rowsOf ft (rowAt fp h 0) (rowAt fp h 1) (rowAt fp h 2) (rowAt fp h 3)

/-! ## Words: a position plus a batch's base row does not wrap -/

theorem toNat_addi (v : BitVec 32) (hv : v.toNat < 8192) (c : ℕ) (hc : c ≤ 24576) :
    (Scalar.addi v (BitVec.ofNat 32 c)).toNat = v.toNat + c := by
  show (v + BitVec.ofNat 32 c).toNat = _
  rw [BitVec.toNat_add, BitVec.toNat_ofNat]
  omega

theorem off1_eq (v : BitVec 32) (hv : v.toNat < 8192) : k0_off1 v = ![v.toNat + 0, 0] := by
  unfold k0_off1; exact congrArg (fun n => ![n, 0]) (toNat_addi v hv 0 (by omega))
theorem off2_eq (v : BitVec 32) (hv : v.toNat < 8192) : k0_off2 v = ![v.toNat + 0, 0] := by
  unfold k0_off2; exact congrArg (fun n => ![n, 0]) (toNat_addi v hv 0 (by omega))
theorem off3_eq (v : BitVec 32) (hv : v.toNat < 8192) : k0_off3 v = ![v.toNat + 8192, 0] := by
  unfold k0_off3; exact congrArg (fun n => ![n, 0]) (toNat_addi v hv 8192 (by omega))
theorem off4_eq (v : BitVec 32) (hv : v.toNat < 8192) : k0_off4 v = ![v.toNat + 8192, 0] := by
  unfold k0_off4; exact congrArg (fun n => ![n, 0]) (toNat_addi v hv 8192 (by omega))
theorem off5_eq (v : BitVec 32) (hv : v.toNat < 8192) : k0_off5 v = ![v.toNat + 16384, 0] := by
  unfold k0_off5; exact congrArg (fun n => ![n, 0]) (toNat_addi v hv 16384 (by omega))
theorem off6_eq (v : BitVec 32) (hv : v.toNat < 8192) : k0_off6 v = ![v.toNat + 16384, 0] := by
  unfold k0_off6; exact congrArg (fun n => ![n, 0]) (toNat_addi v hv 16384 (by omega))
theorem off7_eq (v : BitVec 32) (hv : v.toNat < 8192) : k0_off7 v = ![v.toNat + 24576, 0] := by
  unfold k0_off7; exact congrArg (fun n => ![n, 0]) (toNat_addi v hv 24576 (by omega))
theorem off8_eq (v : BitVec 32) (hv : v.toNat < 8192) : k0_off8 v = ![v.toNat + 24576, 0] := by
  unfold k0_off8; exact congrArg (fun n => ![n, 0]) (toNat_addi v hv 24576 (by omega))

/-- A one-row window at row `r < 32768` of the table lies inside it. -/
theorem row_inb {o : Fin 2 → ℕ} {r : ℕ} (e : o = ![r, 0]) (hr : r < 32768) : ∀ a, o a + S1x2048.size a ≤ S32768x2048.size a := by
  subst e; intro a
  match a with
  | ⟨0, _⟩ => show r + 1 ≤ 32768; omega
  | ⟨1, _⟩ => show 0 + 2048 ≤ 2048; omega

theorem chk1_of (v : BitVec 32) (hv : v.toNat < 8192) : k0_chk1 v := row_inb (off1_eq v hv) (by omega)
theorem chk2_of (v : BitVec 32) (hv : v.toNat < 8192) : k0_chk2 v := row_inb (off2_eq v hv) (by omega)
theorem chk3_of (v : BitVec 32) (hv : v.toNat < 8192) : k0_chk3 v := row_inb (off3_eq v hv) (by omega)
theorem chk4_of (v : BitVec 32) (hv : v.toNat < 8192) : k0_chk4 v := row_inb (off4_eq v hv) (by omega)
theorem chk5_of (v : BitVec 32) (hv : v.toNat < 8192) : k0_chk5 v := row_inb (off5_eq v hv) (by omega)
theorem chk6_of (v : BitVec 32) (hv : v.toNat < 8192) : k0_chk6 v := row_inb (off6_eq v hv) (by omega)
theorem chk7_of (v : BitVec 32) (hv : v.toNat < 8192) : k0_chk7 v := row_inb (off7_eq v hv) (by omega)
theorem chk8_of (v : BitVec 32) (hv : v.toNat < 8192) : k0_chk8 v := row_inb (off8_eq v hv) (by omega)

/-! ## The word the sequencer reads back, and a row as the copy reads it -/

/-- Word `k` of the scalar memory after the positions were copied into it whole: position `k`. -/
theorem word_eq (fp fs : (⟨S8, .i32⟩ : BufTy).Contents (Elt F)) (k : Fin 8)
    (hk : ∀ a, (![k.val] : Fin 1 → ℕ) a + S1.size a ≤ S8.size a) (h1 : 0 < (Rect.unit (s := S8) ![k.val] S1.size hk).toLoadRect.shape.numel) :
    View.readAt (Elt F) (sW).view (Rect.unit (s := S8) ![k.val] S1.size hk).toLoadRect
        (View.write (Elt F) (sW).view fs (ReadAs.same.apply (View.read (Elt F) (pW).view fp)) Finset.univ) (Shape.Idx.first h1)
      = fp (ix1 k) := by
  simp only [View.readAt_apply, Memref.view_whole, View.write_whole_univ, View.read_whole]
  change fp _ = fp (ix1 k)
  refine congrArg fp ?_
  funext a
  refine Fin.ext ?_
  match a with
  | ⟨0, _⟩ =>
    have h' : (Shape.Idx.first h1 (0 : Fin 1)).val < 1 := (Shape.Idx.first h1 (0 : Fin 1)).isLt
    show k.val + 1 * (Shape.Idx.first h1 (0 : Fin 1)).val = k.val
    omega

/-- What a one-row copy out of the table carries: element `x` of the row window at row `r` is the table at `(r, x 1)`. -/
theorem row_payload (ft : (⟨S32768x2048, .f32⟩ : BufTy).Contents (Elt F)) (o : Fin 2 → ℕ) (r : ℕ) (e : o = ![r, 0]) (hr : r < 32768)
    (hin : ∀ a, o a + S1x2048.size a ≤ S32768x2048.size a) (hs : ∀ a, (Rect.unit (s := S32768x2048) o S1x2048.size hin).stride a = 1)
    (x : S1x2048.Idx) :
    ReadAs.same.apply (View.read (Elt F) ((tW).slice (Rect.unit (s := S32768x2048) o S1x2048.size hin) hs).view ft) x
      = ft (ix2 (⟨r, hr⟩ : Fin 32768) (x 1)) := by
  subst e
  change View.read (Elt F) ((tW).slice (Rect.unit (s := S32768x2048) ![r, 0] S1x2048.size hin) hs).view ft x = _
  simp only [Memref.view_slice, Memref.view_whole]
  refine (View.read_apply _ _).trans ((cast_eq _ _).trans ?_)
  refine congrArg ft ?_
  funext a
  refine Fin.ext ?_
  match a with
  | ⟨0, _⟩ =>
    have h : (x 0).val < 1 := (x 0).isLt
    show r + 1 * (x 0).val = r
    omega
  | ⟨1, _⟩ =>
    show 0 + 1 * (x 1).val = (x 1).val
    omega

/-- Four one-row writes, one per row of a [4, 2048] array, each carrying a row of the table: read back, the array
    is `rowsOf` of the table, whatever it held before. -/
theorem read_rows {κ : Kind} {sp : Space} (v : View sig κ sp S4x2048 .f32) (f0 : v.ty.Contents (Elt F))
    (ft : (⟨S32768x2048, .f32⟩ : BufTy).Contents (Elt F)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768)
    (i0 : ∀ a, o0 a + S1x2048.size a ≤ S32768x2048.size a) (i1 : ∀ a, o1 a + S1x2048.size a ≤ S32768x2048.size a)
    (i2 : ∀ a, o2 a + S1x2048.size a ≤ S32768x2048.size a) (i3 : ∀ a, o3 a + S1x2048.size a ≤ S32768x2048.size a)
    (s0 : ∀ a, (Rect.unit (s := S32768x2048) o0 S1x2048.size i0).stride a = 1) (s1 : ∀ a, (Rect.unit (s := S32768x2048) o1 S1x2048.size i1).stride a = 1)
    (s2 : ∀ a, (Rect.unit (s := S32768x2048) o2 S1x2048.size i2).stride a = 1) (s3 : ∀ a, (Rect.unit (s := S32768x2048) o3 S1x2048.size i3).stride a = 1)
    (j0 : ∀ a, (![0, 0] : Fin 2 → ℕ) a + S1x2048.size a ≤ S4x2048.size a) (j1 : ∀ a, (![1, 0] : Fin 2 → ℕ) a + S1x2048.size a ≤ S4x2048.size a)
    (j2 : ∀ a, (![2, 0] : Fin 2 → ℕ) a + S1x2048.size a ≤ S4x2048.size a) (j3 : ∀ a, (![3, 0] : Fin 2 → ℕ) a + S1x2048.size a ≤ S4x2048.size a) :
    v.read (Elt F) (v.writes (Elt F) f0
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩])
      = rowsOf ft r0 r1 r2 r3 := by
  funext y
  have hy0 : (y 0).val < 4 := (y 0).isLt
  have hy1 : (y 1).val < 2048 := (y 1).isLt
  refine View.read_writes_apply_of_pieces v f0 (rowsOf ft r0 r1 r2 r3) _ ?_ y ?_
  · intro p hp x
    have hx0 : (x 0).val < 1 := by
      rcases List.mem_cons.mp hp with rfl | hp
      · exact (x 0).isLt
      rcases List.mem_cons.mp hp with rfl | hp
      · exact (x 0).isLt
      rcases List.mem_cons.mp hp with rfl | hp
      · exact (x 0).isLt
      rcases List.mem_cons.mp hp with rfl | hp
      · exact (x 0).isLt
      · exact absurd hp List.not_mem_nil
    rcases List.mem_cons.mp hp with rfl | hp
    · refine (row_payload ft o3 r3 e3 l3 i3 s3 x).trans ?_
      unfold rowsOf
      congr 1
      funext a; refine Fin.ext ?_
      match a with
      | ⟨0, _⟩ =>
        have e : (((Rect.unit (s := S4x2048) ![3, 0] S1x2048.size j3).emb x) 0).val = 3 := by
          show 3 + 1 * (x 0).val = 3; omega
        show r3 = min (![r0, r1, r2, r3] ((Rect.unit (s := S4x2048) ![3, 0] S1x2048.size j3).emb x 0)) 32767
        rw [show ((Rect.unit (s := S4x2048) ![3, 0] S1x2048.size j3).emb x 0) = (3 : Fin 4) from Fin.ext e]
        show r3 = min r3 32767; omega
      | ⟨1, _⟩ => show (x 1).val = 0 + 1 * (x 1).val; omega
    rcases List.mem_cons.mp hp with rfl | hp
    · refine (row_payload ft o2 r2 e2 l2 i2 s2 x).trans ?_
      unfold rowsOf
      congr 1
      funext a; refine Fin.ext ?_
      match a with
      | ⟨0, _⟩ =>
        have e : (((Rect.unit (s := S4x2048) ![2, 0] S1x2048.size j2).emb x) 0).val = 2 := by
          show 2 + 1 * (x 0).val = 2; omega
        show r2 = min (![r0, r1, r2, r3] ((Rect.unit (s := S4x2048) ![2, 0] S1x2048.size j2).emb x 0)) 32767
        rw [show ((Rect.unit (s := S4x2048) ![2, 0] S1x2048.size j2).emb x 0) = (2 : Fin 4) from Fin.ext e]
        show r2 = min r2 32767; omega
      | ⟨1, _⟩ => show (x 1).val = 0 + 1 * (x 1).val; omega
    rcases List.mem_cons.mp hp with rfl | hp
    · refine (row_payload ft o1 r1 e1 l1 i1 s1 x).trans ?_
      unfold rowsOf
      congr 1
      funext a; refine Fin.ext ?_
      match a with
      | ⟨0, _⟩ =>
        have e : (((Rect.unit (s := S4x2048) ![1, 0] S1x2048.size j1).emb x) 0).val = 1 := by
          show 1 + 1 * (x 0).val = 1; omega
        show r1 = min (![r0, r1, r2, r3] ((Rect.unit (s := S4x2048) ![1, 0] S1x2048.size j1).emb x 0)) 32767
        rw [show ((Rect.unit (s := S4x2048) ![1, 0] S1x2048.size j1).emb x 0) = (1 : Fin 4) from Fin.ext e]
        show r1 = min r1 32767; omega
      | ⟨1, _⟩ => show (x 1).val = 0 + 1 * (x 1).val; omega
    rcases List.mem_cons.mp hp with rfl | hp
    · refine (row_payload ft o0 r0 e0 l0 i0 s0 x).trans ?_
      unfold rowsOf
      congr 1
      funext a; refine Fin.ext ?_
      match a with
      | ⟨0, _⟩ =>
        have e : (((Rect.unit (s := S4x2048) ![0, 0] S1x2048.size j0).emb x) 0).val = 0 := by
          show 0 + 1 * (x 0).val = 0; omega
        show r0 = min (![r0, r1, r2, r3] ((Rect.unit (s := S4x2048) ![0, 0] S1x2048.size j0).emb x 0)) 32767
        rw [show ((Rect.unit (s := S4x2048) ![0, 0] S1x2048.size j0).emb x 0) = (0 : Fin 4) from Fin.ext e]
        show r0 = min r0 32767; omega
      | ⟨1, _⟩ => show (x 1).val = 0 + 1 * (x 1).val; omega
    · exact absurd hp List.not_mem_nil
  · -- the four rows cover the array: index y lies in the row its first coordinate names
    have mem : ∀ (b : ℕ) (jb : ∀ a, (![b, 0] : Fin 2 → ℕ) a + S1x2048.size a ≤ S4x2048.size a), (y 0).val = b →
        y ∈ (Rect.unit (s := S4x2048) ![b, 0] S1x2048.size jb).set := fun b jb hb =>
      Rect.mem_set_unit.mpr fun a => match a with
        | ⟨0, _⟩ => ⟨by show b ≤ (y 0).val; omega, by show (y 0).val < b + 1; omega⟩
        | ⟨1, _⟩ => ⟨Nat.zero_le _, by show (y 1).val < 0 + 2048; omega⟩
    rcases (by omega : (y 0).val = 3 ∨ (y 0).val = 2 ∨ (y 0).val = 1 ∨ (y 0).val = 0) with h | h | h | h
    · exact ⟨_, List.mem_cons_self, mem 3 j3 h⟩
    · exact ⟨_, List.mem_cons_of_mem _ List.mem_cons_self, mem 2 j2 h⟩
    · exact ⟨_, List.mem_cons_of_mem _ (List.mem_cons_of_mem _ List.mem_cons_self), mem 1 j1 h⟩
    · exact ⟨_, List.mem_cons_of_mem _ (List.mem_cons_of_mem _ (List.mem_cons_of_mem _ List.mem_cons_self)), mem 0 j0 h⟩

/-! ## The sequencer's scoped storage: two DMA semaphores and the scalar-memory buffer -/

variable [FloatOps F] (d : Dev nD)

abbrev cellA (c : Fin τ.nSC) : GSem nD τ sig := (S d c, .dma cc0_scratch1.sem)
abbrev cellB (c : Fin τ.nSC) : GSem nD τ sig := (S d c, .dma cc0_scoped0.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scratch1.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped0.sem : SemLoc sig).isScoped .scScalar = true; decide⟩⟩)]

omit [FloatOps F] in
theorem ownBufs_S (c : Fin τ.nSC) :
    (ownBufs (S d c) : sProp 𝕄) = iprop((∃ f, (S d c).loc cc0_scratch0 ↦{fullShare} f)
      ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- The four arrays whole, as the TensorCore hands them over. -/
abbrev pPts (f : Buf (Elt F) (pLoc d)) : sProp 𝕄 := pLoc d ↦{fullShare} f
abbrev tPts (f : Buf (Elt F) (tLoc d)) : sProp 𝕄 := tLoc d ↦{fullShare} f
abbrev aPts (f : Buf (Elt F) (aLoc d)) : sProp 𝕄 := aLoc d ↦{fullShare} f
abbrev bPts (f : Buf (Elt F) (bLoc d)) : sProp 𝕄 := bLoc d ↦{fullShare} f
/-- A share of the table as the sequencer's memref addresses it. -/
abbrev tTok (c : Fin τ.nSC) (q : PosShare TreeShare) (f : Buf (Elt F) (tLoc d)) : sProp 𝕄 := (tW).view.loc (S d c) ↦{q} f

omit [FloatOps F] in
theorem pts_p (c : Fin τ.nSC) (f : Buf (Elt F) (pLoc d)) : ((pW).view.loc (S d c) ↦{fullShare} f : sProp 𝕄) = pLoc d ↦{fullShare} f := by
  simp only [Memref.view_whole, View.set_whole]
omit [FloatOps F] in
theorem pts_t (c : Fin τ.nSC) (q : PosShare TreeShare) (f : Buf (Elt F) (tLoc d)) : ((tW).view.loc (S d c) ↦{q} f : sProp 𝕄) = tLoc d ↦{q} f := by
  simp only [Memref.view_whole, View.set_whole]
omit [FloatOps F] in
theorem pts_a (c : Fin τ.nSC) (f : Buf (Elt F) (aLoc d)) : ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) : ((bW).view.loc (S d c) ↦{fullShare} f : sProp 𝕄) = bLoc d ↦{fullShare} f := by
  simp only [Memref.view_whole, View.set_whole]
omit [FloatOps F] in
theorem pts_s (c : Fin τ.nSC) (f : Buf (Elt F) ((S d c).loc cc0_scratch0)) : ((sW).view.loc (S d c) ↦{fullShare} f : sProp 𝕄) = (S d c).loc cc0_scratch0 ↦{fullShare} f := by
  simp only [Memref.view_whole, View.set_whole]

/-- The k-th of the eight read shares the table is split into (each copy reads the table through one of them), and
    what is left of the full share beside them. -/
def rdShare (k : ℕ) : PosShare TreeShare := Transfers.shareTokN fullShare k
def rdRest : PosShare TreeShare := Transfers.shareDrop fullShare 8

/-- The eight read shares of the table and the remainder are the table whole. -/
theorem toks_split (c : Fin τ.nSC) (ft : Buf (Elt F) (tLoc d)) :
    (tTok d c fullShare ft : sProp 𝕄) ⊢ iprop(tTok d c rdRest ft
        ∗ tTok d c (rdShare 0) ft ∗ tTok d c (rdShare 1) ft
        ∗ tTok d c (rdShare 2) ft ∗ tTok d c (rdShare 3) ft
        ∗ tTok d c (rdShare 4) ft ∗ tTok d c (rdShare 5) ft
        ∗ tTok d c (rdShare 6) ft ∗ tTok d c (rdShare 7) ft) :=
  (Transfers.pointsTo_toks_range (Ix := HIx 1) (Name := ℕ) (U := UU) (Lvl := ℕ) fullShare 8).1.trans
    (Entails.of_eq (by
      unfold rdShare rdRest
      rw [show Finset.range 8 = {0, 1, 2, 3, 4, 5, 6, 7} by decide, SparseCore.bigSep_insert' (by decide), SparseCore.bigSep_insert' (by decide),
        SparseCore.bigSep_insert' (by decide), SparseCore.bigSep_insert' (by decide), SparseCore.bigSep_insert' (by decide),
        SparseCore.bigSep_insert' (by decide), SparseCore.bigSep_insert' (by decide), bigSep_singleton]))

theorem toks_join (c : Fin τ.nSC) (ft : Buf (Elt F) (tLoc d)) :
    iprop(tTok d c rdRest ft
        ∗ tTok d c (rdShare 0) ft ∗ tTok d c (rdShare 1) ft
        ∗ tTok d c (rdShare 2) ft ∗ tTok d c (rdShare 3) ft
        ∗ tTok d c (rdShare 4) ft ∗ tTok d c (rdShare 5) ft
        ∗ tTok d c (rdShare 6) ft ∗ tTok d c (rdShare 7) ft) ⊢ (tTok d c fullShare ft : sProp 𝕄) :=
  (Entails.of_eq (by
      unfold rdShare rdRest
      rw [show Finset.range 8 = {0, 1, 2, 3, 4, 5, 6, 7} by decide, SparseCore.bigSep_insert' (by decide), SparseCore.bigSep_insert' (by decide),
        SparseCore.bigSep_insert' (by decide), SparseCore.bigSep_insert' (by decide), SparseCore.bigSep_insert' (by decide),
        SparseCore.bigSep_insert' (by decide), SparseCore.bigSep_insert' (by decide), bigSep_singleton])).trans
    (Transfers.pointsTo_toks_range (Ix := HIx 1) (Name := ℕ) (U := UU) (Lvl := ℕ) fullShare 8).2

/-- A wait at index `none` recorded on top of waits that are in `W` or at `none`. -/
theorem waits_insert {W W' : Waits sig (HIx 1)} (h : ∀ p ∈ W', p ∈ W ∨ p.2 = none) (sm : SemLoc sig) :
    ∀ p ∈ insert (sm, (default : HIx 1)) W', p ∈ W ∨ p.2 = none := fun p hp => by
  rcases Finset.mem_insert.mp hp with rfl | hp
  · exact .inr rfl
  · exact h p hp

/-! ## The body -/

/-- The word the sequencer reads back at index `k` of its scalar memory, after the positions were copied into it. -/
abbrev wordAt (fp fs : (⟨S8, .i32⟩ : BufTy).Contents (Elt F)) (k : Fin 8)
    (hk : ∀ a, (![k.val] : Fin 1 → ℕ) a + S1.size a ≤ S8.size a) (h1 : 0 < (Rect.unit (s := S8) ![k.val] S1.size hk).toLoadRect.shape.numel) : BitVec 32 :=
  View.readAt (Elt F) (sW).view (Rect.unit (s := S8) ![k.val] S1.size hk).toLoadRect
    (View.write (Elt F) (sW).view fs (ReadAs.same.apply (View.read (Elt F) (pW).view fp)) Finset.univ) (Shape.Idx.first h1)

omit [FloatOps F] in
theorem word_lt (fp fs : (⟨S8, .i32⟩ : BufTy).Contents (Elt F)) (hr : ∀ k : Fin 8, BitVec.toNat (fp (ix1 k)) < 8192) (k : Fin 8) (hk) (h1) :
    BitVec.toNat (wordAt (F := F) fp fs k hk h1) < 8192 := by
  rw [wordAt, word_eq]; exact hr k

omit [FloatOps F] in
theorem rowAt_lt (fp : S8.Idx → BitVec 32) (hr : ∀ k : Fin 8, BitVec.toNat (fp (ix1 k)) < 8192) (h : Fin 2) (b : Fin 4) : rowAt fp h b < 32768 := by
  unfold rowAt
  have := hr (⟨4 * h.val + b.val, by omega⟩ : Fin 8)
  have := b.isLt
  omega

section Offsets
variable (fp fs : (⟨S8, .i32⟩ : BufTy).Contents (Elt F))
omit [FloatOps F]
theorem offA0 (hr : ∀ k : Fin 8, BitVec.toNat (fp (ix1 k)) < 8192) (hk) (h1) : k0_off1 (wordAt (F := F) fp fs 0 hk h1) = ![rowAt fp 0 0, 0] := by
  rw [wordAt, word_eq]; exact (off1_eq _ (hr 0)).trans rfl
theorem offB0 (hr : ∀ k : Fin 8, BitVec.toNat (fp (ix1 k)) < 8192) (hk) (h1) : k0_off2 (wordAt (F := F) fp fs 4 hk h1) = ![rowAt fp 1 0, 0] := by
  rw [wordAt, word_eq]; exact (off2_eq _ (hr 4)).trans rfl
theorem offA1 (hr : ∀ k : Fin 8, BitVec.toNat (fp (ix1 k)) < 8192) (hk) (h1) : k0_off3 (wordAt (F := F) fp fs 1 hk h1) = ![rowAt fp 0 1, 0] := by
  rw [wordAt, word_eq]; exact (off3_eq _ (hr 1)).trans rfl
theorem offB1 (hr : ∀ k : Fin 8, BitVec.toNat (fp (ix1 k)) < 8192) (hk) (h1) : k0_off4 (wordAt (F := F) fp fs 5 hk h1) = ![rowAt fp 1 1, 0] := by
  rw [wordAt, word_eq]; exact (off4_eq _ (hr 5)).trans rfl
theorem offA2 (hr : ∀ k : Fin 8, BitVec.toNat (fp (ix1 k)) < 8192) (hk) (h1) : k0_off5 (wordAt (F := F) fp fs 2 hk h1) = ![rowAt fp 0 2, 0] := by
  rw [wordAt, word_eq]; exact (off5_eq _ (hr 2)).trans rfl
theorem offB2 (hr : ∀ k : Fin 8, BitVec.toNat (fp (ix1 k)) < 8192) (hk) (h1) : k0_off6 (wordAt (F := F) fp fs 6 hk h1) = ![rowAt fp 1 2, 0] := by
  rw [wordAt, word_eq]; exact (off6_eq _ (hr 6)).trans rfl
theorem offA3 (hr : ∀ k : Fin 8, BitVec.toNat (fp (ix1 k)) < 8192) (hk) (h1) : k0_off7 (wordAt (F := F) fp fs 3 hk h1) = ![rowAt fp 0 3, 0] := by
  rw [wordAt, word_eq]; exact (off7_eq _ (hr 3)).trans rfl
theorem offB3 (hr : ∀ k : Fin 8, BitVec.toNat (fp (ix1 k)) < 8192) (hk) (h1) : k0_off8 (wordAt (F := F) fp fs 7 hk h1) = ![rowAt fp 1 3, 0] := by
  rw [wordAt, word_eq]; exact (off8_eq _ (hr 7)).trans rfl
end Offsets

omit [FloatOps F] in
/-- The first result array after its four rows have landed. -/
theorem rows_a (c : Fin τ.nSC) (fa : Buf (Elt F) (aLoc d)) (ft : Buf (Elt F) (tLoc d)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768) (i0) (i1) (i2) (i3) (s0) (s1) (s2) (s3) (j0) (j1) (j2) (j3) :
    ((aW).view.loc (S d c) ↦{fullShare} (aW).view.writes (Elt F) fa
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩] : sProp 𝕄)
      ⊢ aPts d (rowsOf ft r0 r1 r2 r3) := by
  rw [pts_a]
  refine Entails.of_eq (congrArg (fun g => (aLoc d ↦{fullShare} g : sProp 𝕄)) ?_)
  have h := read_rows (F := F) (aW).view fa ft o0 o1 o2 o3 r0 r1 r2 r3 e0 e1 e2 e3 l0 l1 l2 l3 i0 i1 i2 i3 s0 s1 s2 s3 j0 j1 j2 j3
  have hw : ∀ g : (aW).view.ty.Contents (Elt F), View.read (Elt F) (aW).view g = g := fun g => by
    simp only [Memref.view_whole, View.read_whole]
  exact (hw _).symm.trans h

omit [FloatOps F] in
/-- The second result array after its four rows have landed. -/
theorem rows_b (c : Fin τ.nSC) (fb : Buf (Elt F) (bLoc d)) (ft : Buf (Elt F) (tLoc d)) (o0 o1 o2 o3 : Fin 2 → ℕ) (r0 r1 r2 r3 : ℕ)
    (e0 : o0 = ![r0, 0]) (e1 : o1 = ![r1, 0]) (e2 : o2 = ![r2, 0]) (e3 : o3 = ![r3, 0])
    (l0 : r0 < 32768) (l1 : r1 < 32768) (l2 : r2 < 32768) (l3 : r3 < 32768) (i0) (i1) (i2) (i3) (s0) (s1) (s2) (s3) (j0) (j1) (j2) (j3) :
    ((bW).view.loc (S d c) ↦{fullShare} (bW).view.writes (Elt F) fb
      [⟨Rect.unit (s := S4x2048) ![3, 0] S1x2048.size j3, ReadAs.same.apply (View.read (Elt F) ((tW).slice (Rect.unit (s := S32768x2048) o3 S1x2048.size i3) s3).view ft)⟩,
       ⟨Rect.unit (s := S4x2048) ![2, 0] S1x2048.size j2, ReadAs.same.apply (View.read (Elt F) ((tW).slice (Rect.unit (s := S32768x2048) o2 S1x2048.size i2) s2).view ft)⟩,
       ⟨Rect.unit (s := S4x2048) ![1, 0] S1x2048.size j1, ReadAs.same.apply (View.read (Elt F) ((tW).slice (Rect.unit (s := S32768x2048) o1 S1x2048.size i1) s1).view ft)⟩,
       ⟨Rect.unit (s := S4x2048) ![0, 0] S1x2048.size j0, ReadAs.same.apply (View.read (Elt F) ((tW).slice (Rect.unit (s := S32768x2048) o0 S1x2048.size i0) s0).view ft)⟩] : sProp 𝕄)
      ⊢ bPts d (rowsOf ft r0 r1 r2 r3) := by
  rw [pts_b]
  refine Entails.of_eq (congrArg (fun g => (bLoc d ↦{fullShare} g : sProp 𝕄)) ?_)
  have h := read_rows (F := F) (bW).view fb ft o0 o1 o2 o3 r0 r1 r2 r3 e0 e1 e2 e3 l0 l1 l2 l3 i0 i1 i2 i3 s0 s1 s2 s3 j0 j1 j2 j3
  have hw : ∀ g : (bW).view.ty.Contents (Elt F), View.read (Elt F) (bW).view g = g := fun g => by
    simp only [Memref.view_whole, View.read_whole]
  exact (hw _).symm.trans h

-- the row offsets are words plus constants: only that each slice is a one-row window of the table is used, never their values
attribute [local irreducible] k0_off1 k0_off2 k0_off3 k0_off4 k0_off5 k0_off6 k0_off7 k0_off8

/-- The kernel on the sequencer of SparseCore `L 0` of device `d`: from the positions `fp` (each below 8192) and the
    table `ft`, the two results end at `gathered fp ft 0` and `gathered fp ft 1`; positions and table unchanged. -/
theorem body (L : grid0.Coords) (O : CellTallies nD τ sig (HIx 1)) (W : Waits sig (HIx 1)) (hO : ∀ g, O g none = 0)
    (fp : Buf (Elt F) (pLoc d)) (ft : Buf (Elt F) (tLoc d)) (hr : ∀ k : Fin 8, BitVec.toNat (fp (ix1 k)) < 8192) :
    iprop(levAts (K (F := F)).L (K (F := F)).lev ∗ emp
        ∗ (pPts d fp ∗ tPts d ft ∗ (∃ f, aPts d f) ∗ (∃ f, bPts d f))
        ∗ scopedBufs (S d ((L 0).castLE hcore0)) ∗ scopedSems0 (S d ((L 0).castLE hcore0)) ∗ owes (S d ((L 0).castLE hcore0)) O W)
      ⊢ wp frame (wpE (defs₀ (F := F)) 𝒱₀ (S d ((L 0).castLE hcore0)) none) Set.univ
          (cc0__entity_gather L pW (Memref.isWhole_whole _) tW (Memref.isWhole_whole _) aW (Memref.isWhole_whole _) bW (Memref.isWhole_whole _)
            sW (Memref.isWhole_whole _) cc0_scratch1 cc0_scoped0)
          fun _ => iprop((pPts d fp ∗ tPts d ft ∗ aPts d (gathered fp ft 0) ∗ bPts d (gathered fp ft 1))
            ∗ scopedBufs (S d ((L 0).castLE hcore0)) ∗ scopedSems0 (S d ((L 0).castLE hcore0))
            ∗ ∃ W', ⌜∀ p ∈ W', p ∈ W ∨ p.2 = none⌝ ∗ owes (S d ((L 0).castLE hcore0)) O W') := by
  have _plan : Transfers.BatchOf (S d ((L 0).castLE hcore0)) (SemLoc.dma (sig := sig) cc0_scratch1.sem) 8 (windows := true) := trivial
  simp only [cc0__entity_gather_eq_skeleton]; unfold cc0__entity_gather_skel
  iintro ⟨#Hlv, -, ⟨Hp, Ht, ⟨%fa, Ha⟩, ⟨%fb, Hb⟩⟩, Hsb, Hss, HO⟩
  ihave Hss' := (SparseCore.Cfg.scopedSems0_S_elim (Val := Elt F) d ((L 0).castLE hcore0)) $$ Hss
  icases Hss' with ⟨Hown, Hsubs⟩
  ihave Hown' := (Entails.of_eq (ownSems0_S (F := F) d ((L 0).castLE hcore0))) $$ Hown
  icases Hown' with ⟨HsemA, HsemB, Hrest⟩
  ihave Hsb' := ((K (F := F)).scopedBufs_S_elim facts d ((L 0).castLE hcore0)) $$ Hsb
  icases Hsb' with ⟨Hob, Hvb⟩
  ihave Hob' := (Entails.of_eq (ownBufs_S (F := F) d ((L 0).castLE hcore0))) $$ Hob
  icases Hob' with ⟨⟨%fs, Hs⟩, Hbrest⟩
  ihave Hmw := ((K (F := F)).mayWaits_none (thr := S d ((L 0).castLE hcore0)) hO) $$ Hlv
  ihave Hp' := (Entails.of_eq (pts_p (F := F) d ((L 0).castLE hcore0) _).symm) $$ Hp
  ihave Ht' := (Entails.of_eq (pts_t (F := F) d ((L 0).castLE hcore0) _ _).symm) $$ Ht
  ihave Ha' := (Entails.of_eq (pts_a (F := F) d ((L 0).castLE hcore0) _).symm) $$ Ha
  ihave Hb' := (Entails.of_eq (pts_b (F := F) d ((L 0).castLE hcore0) _).symm) $$ Hb
  ihave Hs' := (Entails.of_eq (pts_s (F := F) d ((L 0).castLE hcore0) _).symm) $$ Hs
  ihave Ht8 := (toks_split (F := F) d ((L 0).castLE hcore0) ft) $$ Ht'
  icases Ht8 with ⟨Htr, Ht0, Ht1, Ht2, Ht3, Ht4, Ht5, Ht6, Ht7⟩
  sl_exec (disch := first
    | (guard_target = k0_chk1 _; exact chk1_of _ (word_lt (F := F) fp _ hr 0 _ _))
    | (guard_target = k0_chk2 _; exact chk2_of _ (word_lt (F := F) fp _ hr 4 _ _))
    | (guard_target = k0_chk3 _; exact chk3_of _ (word_lt (F := F) fp _ hr 1 _ _))
    | (guard_target = k0_chk4 _; exact chk4_of _ (word_lt (F := F) fp _ hr 5 _ _))
    | (guard_target = k0_chk5 _; exact chk5_of _ (word_lt (F := F) fp _ hr 2 _ _))
    | (guard_target = k0_chk6 _; exact chk6_of _ (word_lt (F := F) fp _ hr 6 _ _))
    | (guard_target = k0_chk7 _; exact chk7_of _ (word_lt (F := F) fp _ hr 3 _ _))
    | (guard_target = k0_chk8 _; exact chk8_of _ (word_lt (F := F) fp _ hr 7 _ _)))
  sl_step
  isplitl [Hp' Htr Ht0 Ht1 Ht2 Ht3 Ht4 Ht5 Ht6 Ht7 Ha' Hb']
  · isplitl [Hp']; · iapply (Entails.of_eq (pts_p (F := F) d _ _)); iexact Hp'
    isplitl [Htr Ht0 Ht1 Ht2 Ht3 Ht4 Ht5 Ht6 Ht7]
    · iapply (Entails.of_eq (pts_t (F := F) d ((L 0).castLE hcore0) fullShare ft))
      iapply (toks_join (F := F) d ((L 0).castLE hcore0) ft)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Ha']
    · iapply (rows_a (F := F) d ((L 0).castLE hcore0) fa ft _ _ _ _ (rowAt fp 0 0) (rowAt fp 0 1) (rowAt fp 0 2) (rowAt fp 0 3)
        (offA0 (F := F) fp fs hr _ _) (offA1 (F := F) fp fs hr _ _) (offA2 (F := F) fp fs hr _ _) (offA3 (F := F) fp fs hr _ _)
        (rowAt_lt fp hr 0 0) (rowAt_lt fp hr 0 1) (rowAt_lt fp hr 0 2) (rowAt_lt fp hr 0 3) _ _ _ _ _ _ _ _ _ _ _ _)
      iexact Ha'
    · iapply (rows_b (F := F) d ((L 0).castLE hcore0) fb ft _ _ _ _ (rowAt fp 1 0) (rowAt fp 1 1) (rowAt fp 1 2) (rowAt fp 1 3)
        (offB0 (F := F) fp fs hr _ _) (offB1 (F := F) fp fs hr _ _) (offB2 (F := F) fp fs hr _ _) (offB3 (F := F) fp fs hr _ _)
        (rowAt_lt fp hr 1 0) (rowAt_lt fp hr 1 1) (rowAt_lt fp hr 1 2) (rowAt_lt fp hr 1 3) _ _ _ _ _ _ _ _ _ _ _ _)
      iexact Hb'
  isplitl [Hs' Hbrest Hvb]
  · iapply ((K (F := F)).scopedBufs_S_intro facts d ((L 0).castLE hcore0))
    isplitl [Hs' Hbrest]
    · rw [ownBufs_S]
      isplitl [Hs']
      · iexists _; iapply (Entails.of_eq (pts_s (F := F) d _ _)); iexact Hs'
      · iexact Hbrest
    · iexact Hvb
  isplitl [HsemA HsemB Hrest Hsubs]
  · iapply (SparseCore.Cfg.scopedSems0_S_intro (Val := Elt F) d ((L 0).castLE hcore0))
    isplitl [HsemA HsemB Hrest]
    · rw [ownSems0_S]
      isplitl [HsemA]; · iexact HsemA
      isplitl [HsemB]; · iexact HsemB
      iexact Hrest
    · iexact Hsubs
  iexists _; isplitr
  rotate_left
  · iexact HO
  · ipureintro
    iterate 9 refine waits_insert ?_ _
    exact fun p hp => .inl hp

end Cert.Proof.KI

end
-- ==== Proof.RefGather.lean ====
/-
  The reference's gather, read at an index.

  The reference takes, for each batch b, the row of the operand [4, 8192, 2048] at the start index
  (idx[b, 0], idx[b, 1]): slice sizes [1, 1, 2048], the first two operand axes collapsed, the third the result's
  offset axis. StableHLO reads each start index as a signed integer and clamps it so that the slice fits, so
  result element (b, k) is the operand at (min idx[b,0] 3, min idx[b,1] 8191, k).
-/
import proofs.«207034_g45122926411967_cont_8to1c4_813_9_alg».proof.Proof.Gen.ReferenceIdeal
import Idealize.ShloMosaic.Lib.ValueIdx

noncomputable section

namespace Cert.RefGather

open Cert.ReferenceIdeal Cert.ReferenceIdeal.Gen Idealize.ShloMosaic Idealize.ShloMosaic.ValueIdx

/-- The reference's gather dimension numbers. -/
abbrev gd : GatherDims S4x8192x2048 S4x2 S4x2048 := gather_S4x8192x2048_S4x2_S4x2048_1_01_n_n_01_1_112048

/-- The start-index component for operand axis 0 of result index `j` sits at `[j 0, 0]` of the start indices. -/
theorem siIdx_zero (j : S4x2048.Idx) (h : List.idxOf (0 : Fin 3) gd.startIndexMap < gd.startIndexMap.length) :
    gd.siIdx j ⟨List.idxOf (0 : Fin 3) gd.startIndexMap, h⟩ = ix2 (j 0) (0 : Fin 2) := by
  funext b; refine Fin.ext ?_
  match b with
  | ⟨0, _⟩ => rfl
  | ⟨1, _⟩ => rfl

/-- The component for operand axis 1 sits at `[j 0, 1]`. -/
theorem siIdx_one (j : S4x2048.Idx) (h : List.idxOf (1 : Fin 3) gd.startIndexMap < gd.startIndexMap.length) :
    gd.siIdx j ⟨List.idxOf (1 : Fin 3) gd.startIndexMap, h⟩ = ix2 (j 0) (1 : Fin 2) := by
  funext b; refine Fin.ext ?_
  match b with
  | ⟨0, _⟩ => rfl
  | ⟨1, _⟩ => rfl

/-- The gather read at `(b, k)`: the operand at the two clamped start-index components and `k`. -/
theorem gather_apply {α : Type} {w : Nat} (x : S4x8192x2048.Idx → α) (idx : IVec S4x2 w) (j : S4x2048.Idx) :
    Host.gather gd x idx j
      = x (ix3 (⟨min (idx (ix2 (j 0) (0 : Fin 2))).toInt.toNat 3, by omega⟩ : Fin 4)
          (⟨min (idx (ix2 (j 0) (1 : Fin 2))).toInt.toNat 8191, by omega⟩ : Fin 8192) (j 1)) := by
  unfold Host.gather
  congr 1
  funext a
  refine Fin.ext ?_
  have hb : ∀ a : Fin 3, a ∉ gd.operandBatchingDims := fun _ => List.not_mem_nil
  have h0 : (0 : Fin 3) ∈ gd.startIndexMap := List.mem_cons_self
  have h1 : (1 : Fin 3) ∈ gd.startIndexMap := List.mem_cons_of_mem _ List.mem_cons_self
  have h2 : (2 : Fin 3) ∉ gd.startIndexMap := by show (2 : Fin 3) ∉ [0, 1]; decide
  have c0 : (0 : Fin 3) ∈ gd.collapsedSliceDims := List.mem_cons_self
  have c1 : (1 : Fin 3) ∈ gd.collapsedSliceDims := List.mem_cons_of_mem _ List.mem_cons_self
  have c2 : (2 : Fin 3) ∉ gd.collapsedSliceDims := by show (2 : Fin 3) ∉ [0, 1]; decide
  match a with
  | ⟨0, _⟩ =>
    show gd.start j idx 0 + gd.batchCoord j 0 + gd.offCoord j 0 = _
    rw [GatherDims.batchCoord_eq_zero _ _ _ (hb 0), GatherDims.offCoord_eq_zero _ _ _ (fun h => ((GatherDims.mem_sKept _ _).mp h).1 c0)]
    simp only [Nat.add_zero]
    unfold GatherDims.start
    rw [dif_pos h0, siIdx_zero]
    rfl
  | ⟨1, _⟩ =>
    show gd.start j idx 1 + gd.batchCoord j 1 + gd.offCoord j 1 = _
    rw [GatherDims.batchCoord_eq_zero _ _ _ (hb 1), GatherDims.offCoord_eq_zero _ _ _ (fun h => ((GatherDims.mem_sKept _ _).mp h).1 c1)]
    simp only [Nat.add_zero]
    unfold GatherDims.start
    rw [dif_pos h1, siIdx_one]
    rfl
  | ⟨2, _⟩ =>
    show gd.start j idx 2 + gd.batchCoord j 2 + gd.offCoord j 2 = _
    rw [GatherDims.batchCoord_eq_zero _ _ _ (hb 2)]
    have hs : gd.start j idx 2 = 0 := by unfold GatherDims.start; rw [dif_neg h2]
    rw [hs]
    unfold GatherDims.offCoord
    rw [dif_pos ((GatherDims.mem_sKept _ _).mpr ⟨c2, hb 2⟩)]
    simp only [Nat.zero_add, Nat.add_zero]
    rfl

end Cert.RefGather

end
-- ==== Proof.Value.lean ====
/-
  The two programs compute one function of the arguments.

  Kernel: result h (h = 0 from pos1, h = 1 from pos2), element (b, k), is the flattened table [32768, 2048] at
  row pos_h[b, 0] + 8192 b, column k. The table is the embeddings [4, 8192, 2048] reshaped, so row r column k is
  element (r / 8192, r % 8192, k): with 0 ≤ pos < 8192 that is the embeddings at (b, pos_h[b, 0], k).
  Reference: a gather with start index (b', pos') per batch, b' the batch number and pos' the position, each
  passed through jnp's negative-index wrap (a select that is the identity on a nonnegative word); the gather
  clamps both components into range, which changes nothing for b' < 4 and pos' < 8192. So it too reads the
  embeddings at (b, pos_h[b, 0], k). No arithmetic on the float values is involved: the equality is an index equation.
-/
import proofs.«207034_g45122926411967_cont_8to1c4_813_9_alg».proof.Proof.KI.Body
import proofs.«207034_g45122926411967_cont_8to1c4_813_9_alg».proof.Proof.RefGather
import proofs.«207034_g45122926411967_cont_8to1c4_813_9_alg».proof.Proof.Gen.ReferenceIdeal.Read
import Idealize.ShloMosaic.Lib.Pipeline.Value
import Idealize.ShloMosaic.Lib.ValueIdx
import Idealize.ShloMosaic.Lib.Affine

noncomputable section

namespace Cert.Bridge

open Idealize.ShloMosaic Idealize.ShloMosaic.ValueIdx

/-! ## Words -/

/-- A word below 8192 read signed is its unsigned value. -/
theorem toInt_of_lt (v : BitVec 32) (hv : v.toNat < 8192) : v.toInt = (v.toNat : ℤ) :=
  BitVec.toInt_eq_toNat_of_lt (by omega)

/-- jnp's negative-index wrap, `select (v < 0) (v + c) v`, leaves a word below 8192 alone. -/
theorem wrap_id (v c : BitVec 32) (hv : v.toNat < 8192) :
    Scalar.select (IntOp.cmpi .slt v 0#32) (IntOp.addi v c) v = v := by
  unfold Scalar.select
  rw [if_neg]
  intro h
  have h' : v.toInt < (0#32 : BitVec 32).toInt := IntOp.cmpi_slt.mp h
  rw [toInt_of_lt v hv] at h'
  have h0 : (0#32 : BitVec 32).toInt = 0 := by decide
  omega

variable {F : FTy → Type} [FloatOps F]

/-! ## The reference -/

section Ref
open Cert.ReferenceIdeal Cert.ReferenceIdeal.Gen Cert.ReferenceIdeal.Read

/-- Column 0 of the start indices is the batch number. -/
theorem ref_col0_x1 (x1 : (⟨S4x2, .i32⟩ : BufTy).Contents (Elt F)) (b : Fin 4) :
    val_main_v15 (F := F) x1 (ix2 b (0 : Fin 2)) = BitVec.ofNat 32 b.val := by
  unfold val_main_v15
  refine (concatenate_pair_apply_left (t := S4x2) (s₁ := S4x1) (s₂ := S4x1) (1 : Fin 2) _ _ concatenates_S4x1_S4x1_S4x2_d1 (ix2 b (0 : Fin 2)) rfl (ix2 b (0 : Fin 1)) (fun a => ?_)).trans ?_
  · match a with
    | ⟨0, _⟩ => rfl
    | ⟨1, _⟩ => rfl
  · rw [val_main_v13_apply, val_main_v7_apply, val_main_v4_apply, val_main_v6_apply, val_main_v0_apply, val_main_v3_apply, val_main_v5_apply, val_main_c_apply, val_main_c_0_apply]
    exact wrap_id _ _ (by
      show (BitVec.ofNat 32 b.val).toNat < 8192
      rw [BitVec.toNat_ofNat]; have := b.isLt; omega)

/-- Column 1 of the start indices is the position, when it is below 8192. -/
theorem ref_col1_x1 (x1 : (⟨S4x2, .i32⟩ : BufTy).Contents (Elt F)) (b : Fin 4) (hv : BitVec.toNat (x1 (ix2 b (0 : Fin 2))) < 8192) :
    val_main_v15 (F := F) x1 (ix2 b (1 : Fin 2)) = x1 (ix2 b (0 : Fin 2)) := by
  unfold val_main_v15
  refine (concatenate_pair_apply_right (t := S4x2) (s₁ := S4x1) (s₂ := S4x1) (1 : Fin 2) _ _ concatenates_S4x1_S4x1_S4x2_d1 (ix2 b (1 : Fin 2)) rfl rfl (ix2 b (0 : Fin 1)) (fun a ha => ?_) ?_).trans ?_
  · match a with
    | ⟨0, _⟩ => rfl
    | ⟨1, _⟩ => exact absurd rfl ha
  · show 0 + 1 = 1; rfl
  · rw [val_main_v14_apply, val_main_v12_apply, val_main_v9_apply, val_main_v11_apply, val_main_v2_apply, val_main_v1_apply, val_main_v8_apply, val_main_v10_apply, val_main_c_1_apply, val_main_c_2_apply]
    have e : idx_main_v1 (idx_main_v2 (idx_main_v14 (ix2 b (0 : Fin 1)))) = ix2 b (0 : Fin 2) := by
      funext a; refine Fin.ext ?_
      match a with
      | ⟨0, _⟩ => show b.val / 1 = b.val; omega
      | ⟨1, _⟩ => rfl
    rw [e]
    exact wrap_id _ _ hv

/-- The reference's result at `(b, k)`: the embeddings at `(b, pos[b, 0], k)`. -/
theorem ref_value_x1 (x0 : (⟨S4x8192x2048, .f32⟩ : BufTy).Contents (Elt F)) (x1 : (⟨S4x2, .i32⟩ : BufTy).Contents (Elt F))
    (hv : ∀ b : Fin 4, BitVec.toNat (x1 (ix2 b (0 : Fin 2))) < 8192) (b : Fin 4) (k : Fin 2048) :
    val_main_v16 (F := F) x0 x1 (ix2 b k) = x0 (ix3 b (⟨BitVec.toNat (x1 (ix2 b (0 : Fin 2))), hv b⟩ : Fin 8192) k) := by
  unfold val_main_v16
  refine (Cert.RefGather.gather_apply x0 _ (ix2 b k)).trans ?_
  refine congrArg x0 ?_
  funext a; refine Fin.ext ?_
  have hb : b.val < 4 := b.isLt
  have hp := hv b
  match a with
  | ⟨0, _⟩ =>
    show min (BitVec.toInt (val_main_v15 (F := F) x1 (ix2 b (0 : Fin 2)))).toNat 3 = b.val
    rw [ref_col0_x1, toInt_of_lt _ (by rw [BitVec.toNat_ofNat]; omega), Int.toNat_natCast, BitVec.toNat_ofNat]
    omega
  | ⟨1, _⟩ =>
    show min (BitVec.toInt (val_main_v15 (F := F) x1 (ix2 b (1 : Fin 2)))).toNat 8191 = BitVec.toNat (x1 (ix2 b (0 : Fin 2)))
    rw [ref_col1_x1 x1 b hp, toInt_of_lt _ hp, Int.toNat_natCast]
    omega
  | ⟨2, _⟩ => rfl

/-- Column 0 of the start indices is the batch number. -/
theorem ref_col0_x2 (x2 : (⟨S4x2, .i32⟩ : BufTy).Contents (Elt F)) (b : Fin 4) :
    val_main_v32 (F := F) x2 (ix2 b (0 : Fin 2)) = BitVec.ofNat 32 b.val := by
  unfold val_main_v32
  refine (concatenate_pair_apply_left (t := S4x2) (s₁ := S4x1) (s₂ := S4x1) (1 : Fin 2) _ _ concatenates_S4x1_S4x1_S4x2_d1 (ix2 b (0 : Fin 2)) rfl (ix2 b (0 : Fin 1)) (fun a => ?_)).trans ?_
  · match a with
    | ⟨0, _⟩ => rfl
    | ⟨1, _⟩ => rfl
  · rw [val_main_v30_apply, val_main_v24_apply, val_main_v21_apply, val_main_v23_apply, val_main_v17_apply, val_main_v20_apply, val_main_v22_apply, val_main_c_3_apply, val_main_c_4_apply]
    exact wrap_id _ _ (by
      show (BitVec.ofNat 32 b.val).toNat < 8192
      rw [BitVec.toNat_ofNat]; have := b.isLt; omega)

/-- Column 1 of the start indices is the position, when it is below 8192. -/
theorem ref_col1_x2 (x2 : (⟨S4x2, .i32⟩ : BufTy).Contents (Elt F)) (b : Fin 4) (hv : BitVec.toNat (x2 (ix2 b (0 : Fin 2))) < 8192) :
    val_main_v32 (F := F) x2 (ix2 b (1 : Fin 2)) = x2 (ix2 b (0 : Fin 2)) := by
  unfold val_main_v32
  refine (concatenate_pair_apply_right (t := S4x2) (s₁ := S4x1) (s₂ := S4x1) (1 : Fin 2) _ _ concatenates_S4x1_S4x1_S4x2_d1 (ix2 b (1 : Fin 2)) rfl rfl (ix2 b (0 : Fin 1)) (fun a ha => ?_) ?_).trans ?_
  · match a with
    | ⟨0, _⟩ => rfl
    | ⟨1, _⟩ => exact absurd rfl ha
  · show 0 + 1 = 1; rfl
  · rw [val_main_v31_apply, val_main_v29_apply, val_main_v26_apply, val_main_v28_apply, val_main_v19_apply, val_main_v18_apply, val_main_v25_apply, val_main_v27_apply, val_main_c_5_apply, val_main_c_6_apply]
    have e : idx_main_v18 (idx_main_v19 (idx_main_v31 (ix2 b (0 : Fin 1)))) = ix2 b (0 : Fin 2) := by
      funext a; refine Fin.ext ?_
      match a with
      | ⟨0, _⟩ => show b.val / 1 = b.val; omega
      | ⟨1, _⟩ => rfl
    rw [e]
    exact wrap_id _ _ hv

/-- The reference's result at `(b, k)`: the embeddings at `(b, pos[b, 0], k)`. -/
theorem ref_value_x2 (x0 : (⟨S4x8192x2048, .f32⟩ : BufTy).Contents (Elt F)) (x2 : (⟨S4x2, .i32⟩ : BufTy).Contents (Elt F))
    (hv : ∀ b : Fin 4, BitVec.toNat (x2 (ix2 b (0 : Fin 2))) < 8192) (b : Fin 4) (k : Fin 2048) :
    val_main_v33 (F := F) x0 x2 (ix2 b k) = x0 (ix3 b (⟨BitVec.toNat (x2 (ix2 b (0 : Fin 2))), hv b⟩ : Fin 8192) k) := by
  unfold val_main_v33
  refine (Cert.RefGather.gather_apply x0 _ (ix2 b k)).trans ?_
  refine congrArg x0 ?_
  funext a; refine Fin.ext ?_
  have hb : b.val < 4 := b.isLt
  have hp := hv b
  match a with
  | ⟨0, _⟩ =>
    show min (BitVec.toInt (val_main_v32 (F := F) x2 (ix2 b (0 : Fin 2)))).toNat 3 = b.val
    rw [ref_col0_x2, toInt_of_lt _ (by rw [BitVec.toNat_ofNat]; omega), Int.toNat_natCast, BitVec.toNat_ofNat]
    omega
  | ⟨1, _⟩ =>
    show min (BitVec.toInt (val_main_v32 (F := F) x2 (ix2 b (1 : Fin 2)))).toNat 8191 = BitVec.toNat (x2 (ix2 b (0 : Fin 2)))
    rw [ref_col1_x2 x2 b hp, toInt_of_lt _ hp, Int.toNat_natCast]
    omega
  | ⟨2, _⟩ => rfl

end Ref

/-! ## The kernel -/

section Kernel
open Cert.KernelIdeal Cert.KernelIdeal.Gen Cert.Proof.KI
variable {α : Type}

/-- The joined positions: entries 0–3 are column 0 of the first position array, -/
theorem pos_low (x1 x2 : S4x2.Idx → BitVec 32) (b : Fin 4) :
    concatenate S8 0 [⟨S4, shapeCast S4 (extractStridedSlice S4x1 ![0, 0] x1 slices_S4x2_S4x1_0_0) shapeCasts_S4x1_S4⟩,
        ⟨S4, shapeCast S4 (extractStridedSlice S4x1 ![0, 0] x2 slices_S4x2_S4x1_0_0) shapeCasts_S4x1_S4⟩] concatenates_S4_S4_S8_d0
        (ix1 (⟨b.val, by omega⟩ : Fin 8))
      = x1 (ix2 b (0 : Fin 2)) := by
  refine (concatenate_pair_apply_left (t := S8) (s₁ := S4) (s₂ := S4) (0 : Fin 1) _ _ concatenates_S4_S4_S8_d0 (ix1 (⟨b.val, by omega⟩ : Fin 8)) rfl (ix1 b) (fun a => ?_)).trans ?_
  · match a with
    | ⟨0, _⟩ => rfl
  · refine (shapeCast_apply _ shapeCasts_S4x1_S4 (ix1 b) (ix2 b (0 : Fin 1)) ?_).trans ?_
    · rw [Shape.rowMajor_val_two, Shape.rowMajor_val_one]; show b.val * 1 + 0 = b.val; omega
    · exact extractStridedSlice_apply ![0, 0] x1 slices_S4x2_S4x1_0_0 (ix2 b (0 : Fin 1)) (ix2 b (0 : Fin 2)) (fun a => match a with
        | ⟨0, _⟩ => by show b.val = 0 + b.val; omega
        | ⟨1, _⟩ => by show 0 = 0 + 0; rfl)

/-- and entries 4–7 column 0 of the second. -/
theorem pos_high (x1 x2 : S4x2.Idx → BitVec 32) (b : Fin 4) :
    concatenate S8 0 [⟨S4, shapeCast S4 (extractStridedSlice S4x1 ![0, 0] x1 slices_S4x2_S4x1_0_0) shapeCasts_S4x1_S4⟩,
        ⟨S4, shapeCast S4 (extractStridedSlice S4x1 ![0, 0] x2 slices_S4x2_S4x1_0_0) shapeCasts_S4x1_S4⟩] concatenates_S4_S4_S8_d0
        (ix1 (⟨4 + b.val, by omega⟩ : Fin 8))
      = x2 (ix2 b (0 : Fin 2)) := by
  refine (concatenate_pair_apply_right (t := S8) (s₁ := S4) (s₂ := S4) (0 : Fin 1) _ _ concatenates_S4_S4_S8_d0 (ix1 (⟨4 + b.val, by omega⟩ : Fin 8)) rfl rfl (ix1 b)
    (fun a ha => ?_) ?_).trans ?_
  · match a with
    | ⟨0, _⟩ => exact absurd rfl ha
  · show b.val + 4 = 4 + b.val; omega
  · refine (shapeCast_apply _ shapeCasts_S4x1_S4 (ix1 b) (ix2 b (0 : Fin 1)) ?_).trans ?_
    · rw [Shape.rowMajor_val_two, Shape.rowMajor_val_one]; show b.val * 1 + 0 = b.val; omega
    · exact extractStridedSlice_apply ![0, 0] x2 slices_S4x2_S4x1_0_0 (ix2 b (0 : Fin 1)) (ix2 b (0 : Fin 2)) (fun a => match a with
        | ⟨0, _⟩ => by show b.val = 0 + b.val; omega
        | ⟨1, _⟩ => by show 0 = 0 + 0; rfl)

/-- Row `p + 8192 b` of the flattened table is row `p` of batch `b` of the embeddings. -/
theorem table_apply (x0 : S4x8192x2048.Idx → α) (b : Fin 4) (p : Fin 8192) (k : Fin 2048) (r : Fin 32768) (hr : r.val = p.val + 8192 * b.val) :
    shapeCast S32768x2048 x0 shapeCasts_S4x8192x2048_S32768x2048 (ix2 r k) = x0 (ix3 b p k) :=
  shapeCast_apply x0 shapeCasts_S4x8192x2048_S32768x2048 (ix2 r k) (ix3 b p k) (by
    rw [Shape.rowMajor_val_three, Shape.rowMajor_val_two]
    show (b.val * 8192 + p.val) * 2048 + k.val = r.val * 2048 + k.val
    rw [hr]; ring)

/-- The row table of `rowsOf` read at `b`. -/
theorem vec4_apply (r : Fin 4 → ℕ) (b : Fin 4) : ![r 0, r 1, r 2, r 3] b = r b := by
  match b with
  | ⟨0, _⟩ => rfl
  | ⟨1, _⟩ => rfl
  | ⟨2, _⟩ => rfl
  | ⟨3, _⟩ => rfl

/-- The kernel's first result at `(b, k)`: the embeddings at `(b, pos1[b, 0], k)`. -/
theorem kernel_value0 (x0 : S4x8192x2048.Idx → α) (x1 x2 : S4x2.Idx → BitVec 32)
    (hv : ∀ b : Fin 4, BitVec.toNat (x1 (ix2 b (0 : Fin 2))) < 8192) (b : Fin 4) (k : Fin 2048) :
    gathered (concatenate S8 0 [⟨S4, shapeCast S4 (extractStridedSlice S4x1 ![0, 0] x1 slices_S4x2_S4x1_0_0) shapeCasts_S4x1_S4⟩,
        ⟨S4, shapeCast S4 (extractStridedSlice S4x1 ![0, 0] x2 slices_S4x2_S4x1_0_0) shapeCasts_S4x1_S4⟩] concatenates_S4_S4_S8_d0)
      (shapeCast S32768x2048 x0 shapeCasts_S4x8192x2048_S32768x2048) 0 (ix2 b k)
      = x0 (ix3 b (⟨BitVec.toNat (x1 (ix2 b (0 : Fin 2))), hv b⟩ : Fin 8192) k) := by
  have hb : b.val < 4 := b.isLt
  have hp := hv b
  show shapeCast S32768x2048 x0 shapeCasts_S4x8192x2048_S32768x2048 (ix2 _ k) = _
  refine table_apply x0 b _ k _ ?_
  show min (![rowAt _ 0 0, rowAt _ 0 1, rowAt _ 0 2, rowAt _ 0 3] b) 32767 = _
  rw [vec4_apply (fun b' => rowAt _ 0 b') b]
  unfold rowAt
  rw [show (⟨4 * (0 : Fin 2).val + b.val, by omega⟩ : Fin 8) = ⟨b.val, by omega⟩ from Fin.ext (by show 4 * 0 + b.val = b.val; omega),
    pos_low x1 x2 b]
  show min (BitVec.toNat (x1 (ix2 b (0 : Fin 2))) + 8192 * b.val) 32767 = BitVec.toNat (x1 (ix2 b (0 : Fin 2))) + 8192 * b.val
  omega

/-- The kernel's second result at `(b, k)`: the embeddings at `(b, pos2[b, 0], k)`. -/
theorem kernel_value1 (x0 : S4x8192x2048.Idx → α) (x1 x2 : S4x2.Idx → BitVec 32)
    (hv : ∀ b : Fin 4, BitVec.toNat (x2 (ix2 b (0 : Fin 2))) < 8192) (b : Fin 4) (k : Fin 2048) :
    gathered (concatenate S8 0 [⟨S4, shapeCast S4 (extractStridedSlice S4x1 ![0, 0] x1 slices_S4x2_S4x1_0_0) shapeCasts_S4x1_S4⟩,
        ⟨S4, shapeCast S4 (extractStridedSlice S4x1 ![0, 0] x2 slices_S4x2_S4x1_0_0) shapeCasts_S4x1_S4⟩] concatenates_S4_S4_S8_d0)
      (shapeCast S32768x2048 x0 shapeCasts_S4x8192x2048_S32768x2048) 1 (ix2 b k)
      = x0 (ix3 b (⟨BitVec.toNat (x2 (ix2 b (0 : Fin 2))), hv b⟩ : Fin 8192) k) := by
  have hb : b.val < 4 := b.isLt
  have hp := hv b
  show shapeCast S32768x2048 x0 shapeCasts_S4x8192x2048_S32768x2048 (ix2 _ k) = _
  refine table_apply x0 b _ k _ ?_
  show min (![rowAt _ 1 0, rowAt _ 1 1, rowAt _ 1 2, rowAt _ 1 3] b) 32767 = _
  rw [vec4_apply (fun b' => rowAt _ 1 b') b]
  unfold rowAt
  rw [show (⟨4 * (1 : Fin 2).val + b.val, by omega⟩ : Fin 8) = ⟨4 + b.val, by omega⟩ from Fin.ext (by show 4 * 1 + b.val = 4 + b.val; omega),
    pos_high x1 x2 b]
  show min (BitVec.toNat (x2 (ix2 b (0 : Fin 2))) + 8192 * b.val) 32767 = BitVec.toNat (x2 (ix2 b (0 : Fin 2))) + 8192 * b.val
  omega

end Kernel

end Cert.Bridge

end
-- ==== Proof.KB.Link.lean ====
/-
  The positions the call finds, as a function of the launch memory (word-level instance): the two position arrays'
  first columns joined; with positions below 8192 in both arrays every joined position is below 8192.
-/
import proofs.«207034_g45122926411967_cont_8to1c4_813_9_alg».proof.Proof.KB.Main
import proofs.«207034_g45122926411967_cont_8to1c4_813_9_alg».proof.Proof.Value

noncomputable section

namespace Cert.Proof.KB

open Cert.Kernel Cert.Kernel.Gen

open Idealize.ShloMosaic
open Idealize.ShloMosaic.SparseCore (S V T)
open Idealize.ShloMosaic.StableHlo
open Idealize.ShloMosaic.ValueIdx

variable {F : FTy → Type} [FloatOps F]
variable (m : (ℓ : Loc nD τ sig) → Buf (Elt F) ℓ)

/-- The positions at the call: column 0 of each position array, joined. -/
theorem fpos_eq (d : Dev nD) :
    fpos m d = concatenate S8 0
      [⟨S4, shapeCast S4 (extractStridedSlice S4x1 ![0, 0] (m ((SparseCore.T d).loc main_arg1)) slices_S4x2_S4x1_0_0) shapeCasts_S4x1_S4⟩,
       ⟨S4, shapeCast S4 (extractStridedSlice S4x1 ![0, 0] (m ((SparseCore.T d).loc main_arg2)) slices_S4x2_S4x1_0_0) shapeCasts_S4x1_S4⟩]
      concatenates_S4_S4_S8_d0 := by
  show Vc m d p' = _
  unfold Vc; after_results; rfl

/-- Positions below 8192 in both arrays: every joined position is below 8192. -/
theorem hr_of_range (d : Dev nD)
    (h1 : ∀ i, BitVec.toNat (m ((SparseCore.T d).loc main_arg1) i) < 8192) (h2 : ∀ i, BitVec.toNat (m ((SparseCore.T d).loc main_arg2) i) < 8192) :
    ∀ k : Fin 8, BitVec.toNat (fpos m d (ix1 k)) < 8192 := by
  intro k
  rw [fpos_eq]
  by_cases hk : k.val < 4
  · have e : (ix1 k : S8.Idx) = ix1 (⟨(⟨k.val, hk⟩ : Fin 4).val, by omega⟩ : Fin 8) := rfl
    rw [e, Cert.Bridge.pos_low]; exact h1 _
  · have hk' : k.val - 4 < 4 := by have := k.isLt; omega
    have e : (ix1 k : S8.Idx) = ix1 (⟨4 + (⟨k.val - 4, hk'⟩ : Fin 4).val, by omega⟩ : Fin 8) :=
      congrArg ix1 (Fin.ext (by show k.val = 4 + (k.val - 4); omega))
    rw [e, Cert.Bridge.pos_high]; exact h2 _

end Cert.Proof.KB

end
-- ==== Proof.KI.Main.lean ====
/-
  The launch: @main on the TensorCore, the call's payload, and the run of the whole family of threads.

  @main flattens the embeddings [4, 8192, 2048] to the table [32768, 2048], takes column 0 of each position array,
  joins the two columns into the positions [8], starts the one SparseCore call and returns. The call takes the
  positions, the table and the two result arrays to SparseCore 0's sequencer and brings them back with the results
  written. Every argument array is read only, so it ends at its launch contents.
-/
import proofs.«207034_g45122926411967_cont_8to1c4_813_9_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "pW" => (Memref.whole Cert.KernelIdeal.main_v5_scs : Memref Cert.KernelIdeal.sig Kind.scScalar Space.hbm Cert.KernelIdeal.S8 EltTy.i32)
local notation "tW" => (Memref.whole Cert.KernelIdeal.main_v0_scs : Memref Cert.KernelIdeal.sig Kind.scScalar Space.hbm Cert.KernelIdeal.S32768x2048 EltTy.f32)
local notation "aW" => (Memref.whole Cert.KernelIdeal.main_v6_0_scs : Memref Cert.KernelIdeal.sig Kind.scScalar Space.hbm Cert.KernelIdeal.S4x2048 EltTy.f32)
local notation "bW" => (Memref.whole Cert.KernelIdeal.main_v6_1_scs : Memref Cert.KernelIdeal.sig Kind.scScalar Space.hbm Cert.KernelIdeal.S4x2048 EltTy.f32)
local notation "sW" => (Memref.whole Cert.KernelIdeal.cc0_scratch0 : Memref Cert.KernelIdeal.sig Kind.scScalar Space.smem Cert.KernelIdeal.S8 EltTy.i32)

variable (m : (ℓ : Loc nD τ sig) → Buf (Elt F) ℓ) (ρ : Dev nD → PrngReg)

/-! ## @main's operations before the call, and the arrays at the call -/

abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev t' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev p' : DevRef τ sig := Proc.devRef .tc (main_v5 : Ref sig .tc)
abbrev a' : DevRef τ sig := Proc.devRef .tc (main_v6_0 : Ref sig .tc)
abbrev b' : DevRef τ sig := Proc.devRef .tc (main_v6_1 : Ref sig .tc)

variable [FloatOps F]

abbrev op0 : HloOp τ sig (Elt F) := StableHlo.reshape main_arg0 main_v0 rfl shapeCasts_S4x8192x2048_S32768x2048
abbrev op1 : HloOp τ sig (Elt F) := StableHlo.unary main_arg1 main_v1
  ((extractStridedSlice S4x1 ![0, 0] · slices_S4x2_S4x1_0_0) : (⟨S4x2, .i32⟩ : BufTy).Contents (Elt F) → (⟨S4x1, .i32⟩ : BufTy).Contents (Elt F))
abbrev op2 : HloOp τ sig (Elt F) := StableHlo.reshape main_v1 main_v2 rfl shapeCasts_S4x1_S4
abbrev op3 : HloOp τ sig (Elt F) := StableHlo.unary main_arg2 main_v3
  ((extractStridedSlice S4x1 ![0, 0] · slices_S4x2_S4x1_0_0) : (⟨S4x2, .i32⟩ : BufTy).Contents (Elt F) → (⟨S4x1, .i32⟩ : BufTy).Contents (Elt F))
abbrev op4 : HloOp τ sig (Elt F) := StableHlo.reshape main_v3 main_v4 rfl shapeCasts_S4x1_S4
abbrev op5 : HloOp τ sig (Elt F) := StableHlo.binary main_v2 main_v4 main_v5
  ((fun a b => concatenate S8 0 [⟨S4, a⟩, ⟨S4, b⟩] concatenates_S4_S4_S8_d0) : (⟨S4, .i32⟩ : BufTy).Contents (Elt F) → (⟨S4, .i32⟩ : BufTy).Contents (Elt F) → (⟨S8, .i32⟩ : BufTy).Contents (Elt F))

abbrev hostOps : List (HloOp τ sig (Elt F)) := [op0, op1, op2, op3, op4, op5]

/-- The launch valuation, and the valuation at the call. -/
def V0 (d : Dev nD) : Valuation τ sig (Elt F) := fun b => m (d, b)
def Vc (d : Dev nD) : Valuation τ sig (Elt F) := StableHlo.after hostOps (V0 m d)

/-- The positions and the table as the call finds them. -/
abbrev fpos (d : Dev nD) : Buf (Elt F) (pLoc d) := Vc m d p'
abbrev ftab (d : Dev nD) : Buf (Elt F) (tLoc d) := Vc m d t'

/-- The TensorCore's arrays, all unscoped. -/
abbrev S12 : Finset (DevRef τ sig) := {x0', x1', x2', x3', t', v1', v2', v3', v4', p', a', b'}

omit [FloatOps F] in
theorem held_S12 (d : Dev nD) (W : Valuation τ sig (Elt F)) :
    (held (T d) S12 W : sProp 𝕄)
      = iprop(((SparseCore.T d).loc main_arg0 ↦{fullShare} W x0') ∗ ((SparseCore.T d).loc main_arg1 ↦{fullShare} W x1')
          ∗ ((SparseCore.T d).loc main_arg2 ↦{fullShare} W x2') ∗ ((SparseCore.T d).loc main_arg3 ↦{fullShare} W x3')
          ∗ (tLoc d ↦{fullShare} W t') ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_v4 ↦{fullShare} W v4')
          ∗ (pLoc d ↦{fullShare} W p') ∗ (aLoc d ↦{fullShare} W a') ∗ bLoc d ↦{fullShare} W b') := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_arg3 ↦{fullShare} W main_arg3)
          ∗ (tLoc d ↦{fullShare} W main_v0) ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ (pLoc d ↦{fullShare} W main_v5) ∗ (aLoc d ↦{fullShare} W main_v6_0) ∗ bLoc d ↦{fullShare} W main_v6_1) := by
  unfold unscopedBufs
  rw [show (Finset.univ.filter fun b : Ref sig .tc => ¬ b.isScoped)
      = {main_arg0, main_arg1, main_arg2, main_arg3, main_v0, main_v1, main_v2, main_v3, main_v4, main_v5, main_v6_0, main_v6_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S12 (V0 m d) := by
  rw [unscopedBufs_eq, held_S12]; rfl

/-- The arrays after @main's six operations, as the steps leave them. -/
theorem held_Vc (d : Dev nD) :
    (held (T d) S12 ((op5 (F := F)).result ((op4 (F := F)).result ((op3 (F := F)).result ((op2 (F := F)).result ((op1 (F := F)).result
        ((op0 (F := F)).result (V0 m d))))))) : sProp 𝕄)
      = iprop(((SparseCore.T d).loc main_arg0 ↦{fullShare} Vc m d x0') ∗ ((SparseCore.T d).loc main_arg1 ↦{fullShare} Vc m d x1')
          ∗ ((SparseCore.T d).loc main_arg2 ↦{fullShare} Vc m d x2') ∗ ((SparseCore.T d).loc main_arg3 ↦{fullShare} Vc m d x3')
          ∗ (tLoc d ↦{fullShare} Vc m d t') ∗ ((SparseCore.T d).loc main_v1 ↦{fullShare} Vc m d v1') ∗ ((SparseCore.T d).loc main_v2 ↦{fullShare} Vc m d v2')
          ∗ ((SparseCore.T d).loc main_v3 ↦{fullShare} Vc m d v3') ∗ ((SparseCore.T d).loc main_v4 ↦{fullShare} Vc m d v4')
          ∗ (pLoc d ↦{fullShare} Vc m d p') ∗ (aLoc d ↦{fullShare} Vc m d a') ∗ bLoc d ↦{fullShare} Vc m d b') := by
  show held (SparseCore.T d) S12 (Vc m d) = _
  exact held_S12 d (Vc m d)

/-- No operation before the call writes an argument. -/
theorem Vc_x0 (d : Dev nD) : Vc m d x0' = m ((SparseCore.T d).loc main_arg0) := by
  unfold Vc; after_results; rfl
theorem Vc_x1 (d : Dev nD) : Vc m d x1' = m ((SparseCore.T d).loc main_arg1) := by
  unfold Vc; after_results; rfl
theorem Vc_x2 (d : Dev nD) : Vc m d x2' = m ((SparseCore.T d).loc main_arg2) := by
  unfold Vc; after_results; rfl
theorem Vc_x3 (d : Dev nD) : Vc m d x3' = m ((SparseCore.T d).loc main_arg3) := by
  unfold Vc; after_results; rfl

theorem h0 : (op0 (F := F)).bufs ⊆ S12 := show ({x0', t'} : Finset (DevRef τ sig)) ⊆ S12 by decide
theorem h1 : (op1 (F := F)).bufs ⊆ S12 := show ({x1', v1'} : Finset (DevRef τ sig)) ⊆ S12 by decide
theorem h2 : (op2 (F := F)).bufs ⊆ S12 := show ({v1', v2'} : Finset (DevRef τ sig)) ⊆ S12 by decide
theorem h3 : (op3 (F := F)).bufs ⊆ S12 := show ({x2', v3'} : Finset (DevRef τ sig)) ⊆ S12 by decide
theorem h4 : (op4 (F := F)).bufs ⊆ S12 := show ({v3', v4'} : Finset (DevRef τ sig)) ⊆ S12 by decide
theorem h5 : (op5 (F := F)).bufs ⊆ S12 := show ({v2', v4', p'} : Finset (DevRef τ sig)) ⊆ S12 by decide

/-! ## What the handshakes carry -/

/-- Call 0 takes the positions, the table and the two result arrays (whatever they hold) to SparseCore 0 and brings
    them back, the results written; the kernel's proof consumes nothing of the launch's. -/
def P : (K (F := F)).Pay (nD := nD) (Val := Elt F) (Name := ℕ) (U := UU) where
  st := fun _ d _ => iprop(pPts d (fpos m d) ∗ tPts d (ftab m d) ∗ (∃ f, aPts d f) ∗ ∃ f, bPts d f)
  dn := fun _ d _ => iprop(pPts d (fpos m d) ∗ tPts d (ftab m d) ∗ aPts d (gathered (fpos m d) (ftab m d) 0) ∗ bPts d (gathered (fpos m d) (ftab m d) 1))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__entity_gather (coordsS c) pW (Memref.isWhole_whole _) tW (Memref.isWhole_whole _)
          aW (Memref.isWhole_whole _) bW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `ScalarObl` at call 0, from positions below 8192. -/
theorem scalarObl (hr : ∀ (d : Dev nD) (k : Fin 8), BitVec.toNat (fpos m d (ix1 k)) < 8192) :
    (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body (F := F) d (coordsS ⟨_, hc⟩) O W hO (fpos m d) (ftab m d) (hr d)).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) : (bigSep Finset.univ fun c : Fin ((K (F := F)).nCore 0) => (P m).st 0 d c)
    = iprop(pPts d (fpos m d) ∗ tPts d (ftab m d) ∗ (∃ f, aPts d f) ∗ ∃ f, bPts d f) :=
  bigSep_univ_of_subsingleton (0 : Fin 1)
theorem dn0_eq (d : Dev nD) : (bigSep Finset.univ fun c : Fin ((K (F := F)).nCore 0) => (P m).dn 0 d c)
    = iprop(pPts d (fpos m d) ∗ tPts d (ftab m d) ∗ aPts d (gathered (fpos m d) (ftab m d) 0) ∗ bPts d (gathered (fpos m d) (ftab m d) 1)) :=
  bigSep_univ_of_subsingleton (0 : Fin 1)

/-- What @main leaves the claim: the four arguments at their launch contents and the two results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ aPts d (gathered (fpos m d) (ftab m d) 0) ∗ bPts d (gathered (fpos m d) (ftab m d) 1))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S12) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S12) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S12) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S12) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S12) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S12) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call
  ihave Hh := (Entails.of_eq (held_Vc (F := F) m d)) $$ Hheld
  icases Hh with ⟨Hx0, Hx1, Hx2, Hx3, Ht, Hv1, Hv2, Hv3, Hv4, Hp, Ha, Hb2⟩
  iapply ((K (F := F)).wp_run (D (F := F)) 𝒱 (EH := EH) (P := P m) κ d 0) $$ [Hst Hx0 Hx1 Hx2 Hx3 Ht Hp Ha Hb2]
  isplitr; · iexact Hctx
  isplitl [Hst]; · iexact Hst
  isplitl [Hp Ht Ha Hb2]
  · rw [st0_eq]
    isplitl [Hp]; · iexact Hp
    isplitl [Ht]; · iexact Ht
    isplitl [Ha]; · iexists _; iexact Ha
    iexists _; iexact Hb2
  iintro ⟨Hst, Hdn⟩
  ihave Hdn' := (Entails.of_eq (dn0_eq m d)) $$ Hdn
  icases Hdn' with ⟨Hp, Ht, Ha, Hb2⟩
  ihave Hx0' := (Entails.of_eq (congrArg (fun g => ((SparseCore.T d).loc main_arg0 ↦{fullShare} g : sProp 𝕄)) (Vc_x0 m d))) $$ Hx0
  ihave Hx1' := (Entails.of_eq (congrArg (fun g => ((SparseCore.T d).loc main_arg1 ↦{fullShare} g : sProp 𝕄)) (Vc_x1 m d))) $$ Hx1
  ihave Hx2' := (Entails.of_eq (congrArg (fun g => ((SparseCore.T d).loc main_arg2 ↦{fullShare} g : sProp 𝕄)) (Vc_x2 m d))) $$ Hx2
  ihave Hx3' := (Entails.of_eq (congrArg (fun g => ((SparseCore.T d).loc main_arg3 ↦{fullShare} g : sProp 𝕄)) (Vc_x3 m d))) $$ Hx3
  imodintro
  isplitl [Hst]; · iexact Hst
  isplitl [Hx0']; · iexact Hx0'
  isplitl [Hx1']; · iexact Hx1'
  isplitl [Hx2']; · iexact Hx2'
  isplitl [Hx3']; · iexact Hx3'
  isplitl [Ha]; · iexact Ha
  iexact Hb2

/-- What the final memory holds at the claim's arrays, on device `d`. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem (aLoc d) = gathered (fpos m d) (ftab m d) 0
  ∧ s'.mem.mem (bLoc d) = gathered (fpos m d) (ftab m d) 1

omit [FloatOps F] in
/-- An array held whole agrees with the memory. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro ⟨HSI, Hx⟩
  icombine HSI Hx gives %hx
  isplitr
  · ipureintro; exact funext fun i => hx i (Finset.mem_univ i)
  isplitl [HSI] <;> iassumption

theorem hfin (d : Dev nD) (s' : Phys nD τ sig (Elt F)) : iprop(FIN m d ∗ SI s') ⊢ (⌜fq m d s'⌝ : sProp 𝕄) := by
  iintro ⟨⟨H0, H1, H2, H3, Ha, Hb⟩, HSI⟩
  ihave G0 := (agree (F := F) s' _ _) $$ [HSI H0]
  · isplitl [HSI] <;> iassumption
  icases G0 with ⟨%e0, HSI, -⟩
  ihave G1 := (agree (F := F) s' _ _) $$ [HSI H1]
  · isplitl [HSI] <;> iassumption
  icases G1 with ⟨%e1, HSI, -⟩
  ihave G2 := (agree (F := F) s' _ _) $$ [HSI H2]
  · isplitl [HSI] <;> iassumption
  icases G2 with ⟨%e2, HSI, -⟩
  ihave G3 := (agree (F := F) s' _ _) $$ [HSI H3]
  · isplitl [HSI] <;> iassumption
  icases G3 with ⟨%e3, HSI, -⟩
  ihave G4 := (agree (F := F) s' _ _) $$ [HSI Ha]
  · isplitl [HSI] <;> iassumption
  icases G4 with ⟨%e4, HSI, -⟩
  ihave G5 := (agree (F := F) s' _ _) $$ [HSI Hb]
  · isplitl [HSI] <;> iassumption
  icases G5 with ⟨%e5, -, -⟩
  ipureintro
  exact ⟨e0, e1, e2, e3, e4, e5⟩

/-! ## The program's run -/

/-- Every device ends with the two results at `gathered` of the positions and the table as the call found them,
    and the four arguments at their launch contents. -/
def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem (aLoc c) = gathered (fpos m c) (ftab m c) 0
  ∧ r.2.mem (bLoc c) = gathered (fpos m c) (ftab m c) 1

theorem run_main [∀ e, Nonempty (Elt F e)] (hr : ∀ (d : Dev nD) (k : Fin 8), BitVec.toNat (fpos m d (ix1 k)) < 8192) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hr)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KI

end
-- ==== Proof.KI.Link.lean ====
/-
  The arrays the call finds, as functions of the launch memory.

  At the call the positions are the two position arrays' first columns joined, and the table the embeddings
  reshaped; so under positions below 8192 the kernel's two results are, element by element, the embeddings at
  (b, pos1[b, 0], k) and at (b, pos2[b, 0], k).
-/
import proofs.«207034_g45122926411967_cont_8to1c4_813_9_alg».proof.Proof.KI.Main
import proofs.«207034_g45122926411967_cont_8to1c4_813_9_alg».proof.Proof.Value

noncomputable section

namespace Cert.Proof.KI

open Cert.KernelIdeal Cert.KernelIdeal.Gen

open Idealize.ShloMosaic
open Idealize.ShloMosaic.SparseCore (S V T)
open Idealize.ShloMosaic.StableHlo
open Idealize.ShloMosaic.ValueIdx

variable {F : FTy → Type} [FloatOps F]
variable (m : (ℓ : Loc nD τ sig) → Buf (Elt F) ℓ)

/-- The positions at the call: column 0 of each position array, joined. -/
theorem fpos_eq (d : Dev nD) :
    fpos m d = concatenate S8 0
      [⟨S4, shapeCast S4 (extractStridedSlice S4x1 ![0, 0] (m ((SparseCore.T d).loc main_arg1)) slices_S4x2_S4x1_0_0) shapeCasts_S4x1_S4⟩,
       ⟨S4, shapeCast S4 (extractStridedSlice S4x1 ![0, 0] (m ((SparseCore.T d).loc main_arg2)) slices_S4x2_S4x1_0_0) shapeCasts_S4x1_S4⟩]
      concatenates_S4_S4_S8_d0 := by
  show Vc m d p' = _
  unfold Vc; after_results; rfl

/-- The table at the call: the embeddings reshaped. -/
theorem ftab_eq (d : Dev nD) :
    ftab m d = shapeCast S32768x2048 (m ((SparseCore.T d).loc main_arg0)) shapeCasts_S4x8192x2048_S32768x2048 := by
  show Vc m d t' = _
  unfold Vc; after_results; rfl

/-- Positions below 8192 in both arrays: every joined position is below 8192. -/
theorem hr_of_range (d : Dev nD)
    (h1 : ∀ i, BitVec.toNat (m ((SparseCore.T d).loc main_arg1) i) < 8192) (h2 : ∀ i, BitVec.toNat (m ((SparseCore.T d).loc main_arg2) i) < 8192) :
    ∀ k : Fin 8, BitVec.toNat (fpos m d (ix1 k)) < 8192 := by
  intro k
  rw [fpos_eq]
  by_cases hk : k.val < 4
  · have e : (ix1 k : S8.Idx) = ix1 (⟨(⟨k.val, hk⟩ : Fin 4).val, by omega⟩ : Fin 8) := rfl
    rw [e, Cert.Bridge.pos_low]; exact h1 _
  · have hk' : k.val - 4 < 4 := by have := k.isLt; omega
    have e : (ix1 k : S8.Idx) = ix1 (⟨4 + (⟨k.val - 4, hk'⟩ : Fin 4).val, by omega⟩ : Fin 8) :=
      congrArg ix1 (Fin.ext (by show k.val = 4 + (k.val - 4); omega))
    rw [e, Cert.Bridge.pos_high]; exact h2 _

/-- The first result at `(b, k)`. -/
theorem result0 (d : Dev nD) (h1 : ∀ i, BitVec.toNat (m ((SparseCore.T d).loc main_arg1) i) < 8192) (b : Fin 4) (k : Fin 2048) :
    gathered (fpos m d) (ftab m d) 0 (ix2 b k)
      = m ((SparseCore.T d).loc main_arg0) (ix3 b (⟨BitVec.toNat (m ((SparseCore.T d).loc main_arg1) (ix2 b (0 : Fin 2))), h1 _⟩ : Fin 8192) k) := by
  rw [fpos_eq, ftab_eq]
  exact Cert.Bridge.kernel_value0 _ _ _ (fun b => h1 _) b k

/-- The second result at `(b, k)`. -/
theorem result1 (d : Dev nD) (h2 : ∀ i, BitVec.toNat (m ((SparseCore.T d).loc main_arg2) i) < 8192) (b : Fin 4) (k : Fin 2048) :
    gathered (fpos m d) (ftab m d) 1 (ix2 b k)
      = m ((SparseCore.T d).loc main_arg0) (ix3 b (⟨BitVec.toNat (m ((SparseCore.T d).loc main_arg2) (ix2 b (0 : Fin 2))), h2 _⟩ : Fin 8192) k) := by
  rw [fpos_eq, ftab_eq]
  exact Cert.Bridge.kernel_value1 _ _ _ (fun b => h2 _) b k

end Cert.Proof.KI

end
-- ==== Proof.lean ====
/-
  Two gathered rows per batch: `kernel` against its jnp reference.

  For embeddings x : f32[4, 8192, 2048] and positions pos1, pos2 : i32[4, 2] with 0 ≤ pos ≤ 8191, both programs
  return (x[b, pos1[b, 0], :])_b and (x[b, pos2[b, 0], :])_b. The reference indexes x directly (a gather whose start
  indices pass through jnp's negative-index wrap and the gather's clamp, both the identity in this range). The kernel
  flattens x to a table [32768, 2048] and has one SparseCore sequencer copy row pos + 8192 b of the table into row b
  of a result: eight one-row copies started on one DMA semaphore and then waited for by eight waits, with no access
  to any source or destination row in between, so that after the last wait every row has landed.

  The claims: each program runs to the end from any memory satisfying the precondition, faults nowhere and leaves its
  arguments as they were (the kernel's frames are stated over all 35 threads of the device); the kernel's
  idealization rewrites nothing (its ledger is empty); and at the ideal instance the two programs' results are
  equal element by element, which here is an equation between indices — no float arithmetic is involved, and
  finiteness of x is never used. The positions' range is used twice: it keeps every row copy inside the table (the side
  condition the body assumes before each slice), and it makes row pos + 8192 b of the table the row (b, pos) of x.
-/
import proofs.«207034_g45122926411967_cont_8to1c4_813_9_alg».proof.Defs
import proofs.«207034_g45122926411967_cont_8to1c4_813_9_alg».proof.Proof.Gen.Kernel
import proofs.«207034_g45122926411967_cont_8to1c4_813_9_alg».proof.Proof.Gen.Kernel.Skeleton
import proofs.«207034_g45122926411967_cont_8to1c4_813_9_alg».proof.Proof.Gen.KernelIdeal
import proofs.«207034_g45122926411967_cont_8to1c4_813_9_alg».proof.Proof.Gen.KernelIdeal.Skeleton
import proofs.«207034_g45122926411967_cont_8to1c4_813_9_alg».proof.Proof.Gen.ReferenceIdeal
import proofs.«207034_g45122926411967_cont_8to1c4_813_9_alg».proof.Proof.Gen.Pre_input_domain
import proofs.«207034_g45122926411967_cont_8to1c4_813_9_alg».proof.Proof.Gen.ReferenceIdeal.Run
import proofs.«207034_g45122926411967_cont_8to1c4_813_9_alg».proof.Proof.Gen.ReferenceIdeal.Read
import proofs.«207034_g45122926411967_cont_8to1c4_813_9_alg».proof.Proof.Range
import proofs.«207034_g45122926411967_cont_8to1c4_813_9_alg».proof.Proof.KB.Link
import proofs.«207034_g45122926411967_cont_8to1c4_813_9_alg».proof.Proof.KI.Link
import Idealize.ShloMosaic.Adequacy
import Idealize.ShloMosaic.Init

noncomputable section

namespace Cert.Proof

open Idealize.ShloMosaic Idealize.SL.Sem Idealize.ShloMosaic.ValueIdx

/-- The kernel at the word-level instance runs and keeps its arguments: its run with the results dropped. -/
theorem frame_k : Cert.frame_Kernel := by
  intro m g hpre
  have hrange := fun c => Cert.Range.pos_range (F := Bits) _ _ _ _ (hpre c)
  refine (θ_run (Cert.Kernel.defs (F := Bits)) _ _).mono (fun r h c => ?_)
    (Cert.Proof.KB.run_main (F := Bits) m g (fun d => Cert.Proof.KB.hr_of_range m d (hrange d).1 (hrange d).2))
  exact ⟨(h c).1, (h c).2.1, (h c).2.2.1, (h c).2.2.2.1⟩

/-- The same at the ideal instance. -/
theorem frame_ki : Cert.frame_KernelIdeal := by
  intro m g hpre
  have hrange := fun c => Cert.Range.pos_range (F := Ideal) _ _ _ _ (hpre c)
  refine (θ_run (Cert.KernelIdeal.defs (F := Ideal)) _ _).mono (fun r h c => ?_)
    (Cert.Proof.KI.run_main (F := Ideal) m g (fun d => Cert.Proof.KI.hr_of_range m d (hrange d).1 (hrange d).2))
  exact ⟨(h c).1, (h c).2.1, (h c).2.2.1, (h c).2.2.2.1⟩

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance, from memories agreeing on the arguments, both programs end with the same two results: at
    `(b, k)` the embeddings at `(b, pos1[b, 0], k)` and at `(b, pos2[b, 0], k)`. -/
theorem algebraic : Cert.algebraic_KernelIdeal_ReferenceIdeal := by
  intro m g m' g' hpre hagree
  have hrange := fun c => Cert.Range.pos_range (F := Ideal) _ _ _ _ (hpre c)
  refine ⟨fun c => Cert.Proof.KI.gathered (Cert.Proof.KI.fpos m c) (Cert.Proof.KI.ftab m c) 0,
    fun c => Cert.Proof.KI.gathered (Cert.Proof.KI.fpos m c) (Cert.Proof.KI.ftab m c) 1, ?_, ?_⟩
  · refine (θ_run (Cert.KernelIdeal.defs (F := Ideal)) _ _).mono (fun r h c => ?_)
      (Cert.Proof.KI.run_main (F := Ideal) m g (fun d => Cert.Proof.KI.hr_of_range m d (hrange d).1 (hrange d).2))
    exact ⟨(h c).2.2.2.2.1, (h c).2.2.2.2.2, (h c).1, (h c).2.1, (h c).2.2.1, (h c).2.2.2.1⟩
  · refine (θ_run Cert.ReferenceIdeal.defs _ _).mono (fun r h c => ⟨?_, ?_, (h c).2.2⟩)
      (Cert.ReferenceIdeal.Value.run (F := Ideal) m' g')
    · refine ((h c).1.trans (Cert.ReferenceIdeal.Read.val_main_v16_eq _ _)).trans ?_
      rw [(hagree c).1, (hagree c).2.1]
      funext j
      obtain ⟨b, k, rfl⟩ : ∃ (b : Fin 4) (k : Fin 2048), j = ix2 b k := ⟨j 0, j 1, eq_ix2 j⟩
      rw [Cert.Bridge.ref_value_x1 _ _ (fun b => (hrange c).1 _)]
      exact (Cert.Proof.KI.result0 m c (hrange c).1 b k).symm
    · refine ((h c).2.1.trans (Cert.ReferenceIdeal.Read.val_main_v33_eq _ _)).trans ?_
      rw [(hagree c).1, (hagree c).2.2.1]
      funext j
      obtain ⟨b, k, rfl⟩ : ∃ (b : Fin 4) (k : Fin 2048), j = ix2 b k := ⟨j 0, j 1, eq_ix2 j⟩
      rw [Cert.Bridge.ref_value_x2 _ _ (fun b => (hrange c).2 _)]
      exact (Cert.Proof.KI.result1 m c (hrange c).2 b k).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
